-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : IVec S2x1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S2x1600000 : Shape := ⟨2, ![2, 1600000]⟩
abbrev S1000x128 : Shape := ⟨2, ![1000, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 76
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x1600000, .i32⟩
  | .hbm, ⟨6, _⟩ => ⟨S128x128, .bf16⟩
  | .hbm, ⟨7, _⟩ => ⟨S50000x128, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S1650000, .i32⟩
  | .hbm, ⟨27, _⟩ => ⟨S1650000, .i1⟩
  | .hbm, ⟨28, _⟩ => ⟨S_, .i32⟩
  | .hbm, ⟨29, _⟩ => ⟨S1650000, .i32⟩
  | .hbm, ⟨30, _⟩ => ⟨S1650000, .i32⟩
  | .hbm, ⟨31, _⟩ => ⟨S1650000, .i32⟩
  | .hbm, ⟨32, _⟩ => ⟨S1650000x1, .i32⟩
  | .hbm, ⟨33, _⟩ => ⟨S1650000, .f32⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000, .f32⟩
  | .hbm, ⟨43, _⟩ => ⟨S1650000, .f32⟩
  | .hbm, ⟨44, _⟩ => ⟨S_, .i32⟩
  | .hbm, ⟨45, _⟩ => ⟨S1650000, .i32⟩
  | .hbm, ⟨46, _⟩ => ⟨S1650000, .i1⟩
  | .hbm, ⟨47, _⟩ => ⟨S_, .i32⟩
  | .hbm, ⟨48, _⟩ => ⟨S1650000, .i32⟩
  | .hbm, ⟨49, _⟩ => ⟨S1650000, .i32⟩
  | .hbm, ⟨50, _⟩ => ⟨S1650000, .i32⟩
  | .hbm, ⟨51, _⟩ => ⟨S1650000x1, .i32⟩
  | .hbm, ⟨52, _⟩ => ⟨S1650000x128, .f32⟩
  | .hbm, ⟨53, _⟩ => ⟨S1650000x1, .f32⟩
  | .hbm, ⟨54, _⟩ => ⟨S1650000x128, .f32⟩
  | .hbm, ⟨55, _⟩ => ⟨S1650000x128, .f32⟩
  | .hbm, ⟨56, _⟩ => ⟨S_, .f32⟩
  | .hbm, ⟨57, _⟩ => ⟨S50000x128, .f32⟩
  | .hbm, ⟨58, _⟩ => ⟨S1650000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S128x128, .bf16⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x128, .f32⟩
  | .local _ .vmem, ⟨8, _⟩ => ⟨S1x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1000x128, .f32⟩
  | .local _ .vmem, ⟨18, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47_0 : Ref sig .tc := ⟨.hbm, 63, rfl⟩
abbrev main_v47_1 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S1000x128_S1000x128 : S1000x128.ShapeCasts S1000x128
  shapeCasts_S1x128_S1x128 : S1x128.ShapeCasts S1x128
  reduces_S1000x128_S128 : S1000x128.Reduces [0] S128
  shapeCasts_S128_S1x128 : S128.ShapeCasts S1x128
  bcast_S_S1x128 : S_.BroadcastsInDim S1x128 (![] : Fin 0 → Fin S1x128.rank)
  broadcasts_S1x128_S1000x128 : S1x128.Broadcasts S1000x128
  dot_S1000x128_S128x128_S1000x128_1_0_0_1_n_n_wf : DotDims.WF S1000x128 S128x128 S1000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S50000x128.size a
  hwx2_6 : ∀ i : grid2.Coords, EltTy.bits .f32 = 32 ∨ (Rect.block (s := S50000x128) S1000x128.size (cc2_transform_6 i) (hinb2_6 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x1600000, .i32⟩
  | .hbm, ⟨6, _⟩ => ⟨S50000x128, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S1650000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1650000, .i32⟩
  | .hbm, ⟨26, _⟩ => ⟨S1650000, .i1⟩
  | .hbm, ⟨27, _⟩ => ⟨S_, .i32⟩
  | .hbm, ⟨28, _⟩ => ⟨S1650000, .i32⟩
  | .hbm, ⟨29, _⟩ => ⟨S1650000, .i32⟩
  | .hbm, ⟨30, _⟩ => ⟨S1650000, .i32⟩
  | .hbm, ⟨31, _⟩ => ⟨S1650000x1, .i32⟩
  | .hbm, ⟨32, _⟩ => ⟨S1650000, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000, .f32⟩
  | .hbm, ⟨42, _⟩ => ⟨S1650000, .f32⟩
  | .hbm, ⟨43, _⟩ => ⟨S_, .i32⟩
  | .hbm, ⟨44, _⟩ => ⟨S1650000, .i32⟩
  | .hbm, ⟨45, _⟩ => ⟨S1650000, .i1⟩
  | .hbm, ⟨46, _⟩ => ⟨S_, .i32⟩
  | .hbm, ⟨47, _⟩ => ⟨S1650000, .i32⟩
  | .hbm, ⟨48, _⟩ => ⟨S1650000, .i32⟩
  | .hbm, ⟨49, _⟩ => ⟨S1650000, .i32⟩
  | .hbm, ⟨50, _⟩ => ⟨S1650000x1, .i32⟩
  | .hbm, ⟨51, _⟩ => ⟨S1650000x128, .f32⟩
  | .hbm, ⟨52, _⟩ => ⟨S1650000x1, .f32⟩
  | .hbm, ⟨53, _⟩ => ⟨S1650000x128, .f32⟩
  | .hbm, ⟨54, _⟩ => ⟨S1650000x128, .f32⟩
  | .hbm, ⟨55, _⟩ => ⟨S_, .f32⟩
  | .hbm, ⟨56, _⟩ => ⟨S50000x128, .f32⟩
  | .hbm, ⟨57, _⟩ => ⟨S1650000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call0_cst : Ref sig .tc := ⟨.hbm, 92, rfl⟩
abbrev main_call0_v0 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.KernelRun.lean ====
/-
  The idealized kernel program's run with its RESULT kept: every weakly fair execution of @main terminates, nothing
  faulting, and each core's result buffer ends at the last boundary's contents W6 (the fold of the three host
  stretches and the three regions' write-backs from the launch memory), the argument arrays as launched.
  The frame certificate states only the arguments; its proof goes through "every unscoped buffer ends at W6",
  and the same application of the several-regions launch theorem gives the result buffer as well.
-/
import proofs.«138678_j60498909331788_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The run, with the result buffer named: it ends at the last boundary's contents, and the arguments as launched. -/
theorem run_result : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)
    (run_all m ρ)

end Cert.KernelIdeal.Run

end
-- ==== Proof.MatmulRegion.lean ====
/-
  The first region (the linear transform on the matrix unit), read as one whole-array function.
  Grid point t multiplies rows 1000·t … 1000·t + 999 of the 50000 × 128 input by the whole 128 × 128 weight block
  into a zero accumulator. Over the extended reals rounding the input to the narrower format is the identity, so at
  (r, j) the output array ends holding Σ_k x_{r,k} · w_{k,j}: the 50 row blocks tile the output, and each block is
  this sum read through the block's rectangle.
-/
import proofs.«138678_j60498909331788_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MatmulRegion

open Cert.KernelIdeal Cert.KernelIdeal.Gen
open Idealize.ShloMosaic Idealize.ShloMosaic.TcCoe Idealize.SL.Sem Idealize.ShloMosaic.ValueIdx
open Idealize.ShloMosaic.Pipeline (Dat)

/-- A sum of 128 products, the factors read at given positions of two arrays. -/
def prodAt {ι κ : Type} (x : ι → EReal) (w : κ → EReal) (f : Fin 128 → ι) (g : Fin 128 → κ) : EReal :=
  ∑ k : Fin 128, x (f k) * w (g k)

/-- The product array: entry (r, j) is the sum over k of x(r, k) · w(k, j). -/
def prodOut (x : S50000x128.Idx → EReal) (w : S128x128.Idx → EReal) : S50000x128.Idx → EReal :=
  fun i => prodAt x w (fun k => ix2 (i 0) k) (fun k => ix2 k (i 1))

theorem hz : (![0, 0] : Fin 2 → Nat) = fun _ => 0 := funext fun a => by fin_cases a <;> rfl

theorem lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl
theorem lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- The body's one stored value, at an entry j = (p, q) of the block: the block's row p against the weight's column q. -/
theorem pay_apply (x0 : Vec Ideal S1000x128 .f32) (x1 : Vec Ideal S128x128 .bf16) (j : S1000x128.Idx) :
    k0_pay1 (F := Ideal) x0 x1 j = prodAt x0 x1 (fun k => ix2 (j 0) k) (fun k => ix2 k (j 1)) := by
  unfold k0_pay1 prodAt
  simp only [shapeCast_self]
  show FloatOps.matmul dot_S1000x128_S128x128_S1000x128_1_0_0_1_n_n none (truncf (F := Ideal) .bf16 x0 bitsLt_bf16_f32) x1
      (constant (F := Ideal) S1000x128 .f32 0x00000000#32) j = _
  rw [Ideal.matmul_constant_zero_apply,
    ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx j
      ((ValueIdx.contrEquiv1 dot_S1000x128_S128x128_S1000x128_1_0_0_1_n_n 128 rfl rfl).symm k) = ix2 (j 0) k := funext fun a => Fin.ext (by
    match a with
    | ⟨0, _⟩ => exact lhs_0 _ _
    | ⟨1, _⟩ => exact (lhs_1 _ _).trans hk)
  have er : dot_S1000x128_S128x128_S1000x128_1_0_0_1_n_n.rhsIdx j
      ((ValueIdx.contrEquiv1 dot_S1000x128_S128x128_S1000x128_1_0_0_1_n_n 128 rfl rfl).symm k) = ix2 k (j 1) := funext fun a => Fin.ext (by
    match a with
    | ⟨0, _⟩ => exact (rhs_0 _ _).trans hk
    | ⟨1, _⟩ => exact rhs_1 _ _)
  rw [el, er]
  rfl

/-! ## From blocks to the array -/

variable (V : (c : Dev nD) → (b : Ref sig .tc) → Buf (Elt Ideal) ((c : Thread nD τ).loc b))

/-- The printed index maps over the grid: input and output move together, one block of rows per point; the weight
    stays at block (0, 0). -/
theorem idx_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point t writes back is block t of the product of the arrays as the region finds them. -/
theorem flushed_eq (c : Dev nD) (t : Fin cfg0.N) :
    (dat0 (F := Ideal) V c).flushed 2 t = ((cfg0.win 2).blk t).view.read (Elt Ideal)
      (prodOut (V c main_arg0) (V c main_v0)) := by
  show (cfg0.win 2).cut (grid0.coords t) ((dat0 (F := Ideal) V c).after 2 t) = _
  rw [after0_2]
  unfold out0_2
  rw [View.canon_unit_zero hz]
  simp only [View.ld_unit_zero (S := S1000x128) hz, View.ld_unit_zero (S := S128x128) hz]
  obtain ⟨e20, e21, e00, e01, e10, e11⟩ := idx_facts t
  funext j
  have hj0 : (j 0).val < 1000 := (j 0).isLt
  have hj1 : (j 1).val < 128 := (j 1).isLt
  show k0_pay1 (F := Ideal) (iblk0 V c 0 t) (iblk0 V c 1 t) j
    = prodOut (V c main_arg0) (V c main_v0) (((cfg0.win 2).blk t).view.emb j)
  refine (pay_apply (iblk0 V c 0 t) (iblk0 V c 1 t) j).trans ?_
  have o1 : ((cfg0.win 2).blk t).view.emb j 1 = j 1 := by
    apply Fin.ext
    show win0_2.index t (1 : Fin 2) * 128 + 1 * (j 1).val = (j 1).val
    omega
  have hx : ∀ k : Fin 128, ((cfg0.win 0).blk t).view.emb (ix2 (j 0) k)
      = ix2 (((cfg0.win 2).blk t).view.emb j 0) k := fun k => by
    have hk : k.val < 128 := k.isLt
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 128 + 1 * k.val = k.val; omega
  have hw : ∀ k : Fin 128, ((cfg0.win 1).blk t).view.emb (ix2 k (j 1)) = ix2 k (j 1) := fun k => by
    have hk : k.val < 128 := k.isLt
    funext a; apply Fin.ext
    match a with
    | ⟨0, _⟩ => show win0_1.index t (0 : Fin 2) * 128 + 1 * k.val = k.val; omega
    | ⟨1, _⟩ => show win0_1.index t (1 : Fin 2) * 128 + 1 * (j 1).val = (j 1).val; omega
  show prodAt (V c main_arg0) (V c main_v0) (fun k => ((cfg0.win 0).blk t).view.emb (ix2 (j 0) k))
        (fun k => ((cfg0.win 1).blk t).view.emb (ix2 k (j 1)))
    = prodOut (V c main_arg0) (V c main_v0) (((cfg0.win 2).blk t).view.emb j)
  unfold prodOut
  rw [o1, funext hx, funext hw]
  rfl

/-- An index of the array is in point t's block iff each coordinate is in the block's range on its axis. -/
theorem mem_blk (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v1).slice (win0_2.rect t)).set ↔ _
  rw [View.set_slice_whole, Rect.mem_set_unit]
  exact Iff.rfl

/-- Row r lies in the block of point r / 1000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 50 := N_0
  let t : Fin cfg0.N := ⟨(i 0).val / 1000, by rw [hN]; omega⟩
  obtain ⟨e20, e21, -⟩ := idx_facts t
  have tv : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- The region's output array after its last point. -/
theorem final (c : Dev nD) : (dat0 (F := Ideal) V c).arrAt 2 cfg0.N = prodOut (V c main_arg0) (V c main_v0) :=
  (dat0 (F := Ideal) V c).arrAt_eq_of_cover 2 _ (fun t _ => flushed_eq V c t) cover

end Cert.KernelIdeal.MatmulRegion

end
-- ==== Proof.StatsRegion.lean ====
/-
  The second region (the batch statistics), read in closed form.
  The grid runs over the 50 blocks of 1000 rows in order; the two one-row outputs stay in place from one point to the
  next. The first point clears them and then adds its block's column sums (of the entries, and of their squares);
  every later point adds its block's column sums to what the point before left; only the last point writes back.
  Sums of extended reals may be regrouped freely (addition is commutative and associative, 0 is neutral), so after
  point n the first output holds, in column q, the sum of the first 1000·(n + 1) rows of the input's column q, and the
  second the sum of their squares. After the last point these are the sums over all 50000 rows.
-/
import proofs.«138678_j60498909331788_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.StatsRegion

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

theorem hz : (![0, 0] : Fin 2 → Nat) = fun _ => 0 := funext fun a => by fin_cases a <;> rfl

/-! ## What each case of the body leaves, as the stored values -/

section Cases
variable {F : FTy → Type} [FloatOps F]

/-- A later point leaves, in the first output, the stored sum of what was there and the block's column sums. -/
theorem out_B_1 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S1000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S1000x128) hz, View.ld_unit_zero (S := S1x128) hz]

/-- … and in the second output the same with the squares. -/
theorem out_B_2 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S1000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S1000x128) hz, View.ld_unit_zero (S := S1x128) hz]

/-- The first point stores the zero row, reads it back, and leaves the zero row plus the block's column sums. -/
theorem out_A_1 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S1000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S1000x128) hz]

/-- … and the same for the squares. -/
theorem out_A_2 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S1000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S1000x128) hz]

end Cases

/-! ## The stored values over the extended reals -/

/-- The row index (0, q) of a one-row array. -/
abbrev row0 (q : Fin 128) : S1x128.Idx := ix2 (0 : Fin 1) q

/-- Every index of a one-row array is (0, its column). -/
theorem eq_row0 (j : S1x128.Idx) : j = row0 (j 1) := by
  funext a
  match a with
  | ⟨0, _⟩ => exact Fin.ext (by have h : (j 0).val < 1 := (j 0).isLt; show (j 0).val = 0; omega)
  | ⟨1, _⟩ => rfl

/-- A sum down the rows of a 1000 × 128 block, at column q. -/
theorem colsum_apply (src : FVec Ideal S1000x128 .f32) (h : S1000x128.Reduces [0] S128) (hφ : FKind.Formats .f32)
    (hacc : (0x00000000#32 : BitVec 32) = FKind.add.neutral .f32 hφ) (q : Fin 128) :
    multiReduction .add [0] S128 src 0x00000000#32 h hφ hacc (ix1 q) = ∑ p : Fin 1000, src (ix2 p q) :=
  (Ideal.multiReduction_add_single src 0x00000000#32 h hφ hacc (ix1 q)).trans
    (Finset.sum_congr rfl fun p _ => congrArg src (funext fun a => Fin.ext (by
      match a with
      | ⟨0, _⟩ => rfl
      | ⟨1, _⟩ => rfl)))

/-- A 128-vector recast as one row reads, at (0, q), its entry q. -/
theorem cast_row_apply {α : Type} (v : S128.Idx → α) (h : S128.ShapeCasts S1x128) (q : Fin 128) :
    shapeCast S1x128 v h (row0 q) = v (ix1 q) := by
  refine (shapeCast_addUnit_apply ![128] v h (row0 q)).trans (congrArg v (funext fun a => ?_))
  match a with
  | ⟨0, _⟩ => rfl

/-- The stored running sum: what was there plus the block's column sum. -/
theorem pay4_apply (x : FVec Ideal S1000x128 .f32) (xo : FVec Ideal S1x128 .f32) (q : Fin 128) :
    k1_pay4 (F := Ideal) x xo (row0 q) = xo (row0 q) + ∑ p : Fin 1000, x (ix2 p q) := by
  unfold k1_pay4 k1_pay3
  simp only [shapeCast_self]
  refine congrArg (xo (row0 q) + ·) ?_
  refine (cast_row_apply _ _ q).trans ?_
  exact colsum_apply x _ _ _ q

/-- The stored running sum of squares. -/
theorem pay5_apply (x : FVec Ideal S1000x128 .f32) (xo : FVec Ideal S1x128 .f32) (q : Fin 128) :
    k1_pay5 (F := Ideal) x xo (row0 q) = xo (row0 q) + ∑ p : Fin 1000, x (ix2 p q) * x (ix2 p q) := by
  unfold k1_pay5 k1_pay3
  simp only [shapeCast_self]
  refine congrArg (xo (row0 q) + ·) ?_
  refine (cast_row_apply _ _ q).trans ?_
  exact colsum_apply (mulf x x) _ _ _ q

theorem pay1_apply (j : S1x128.Idx) : k1_pay1 (F := Ideal) j = 0 := Ideal.ofBits_zero_f32
theorem pay2_apply (j : S1x128.Idx) : k1_pay2 (F := Ideal) j = 0 := Ideal.ofBits_zero_f32

/-! ## The running sums -/

/-- Row r of column q of the array, 0 past the last row. -/
def rowval (A : S50000x128.Idx → EReal) (q : Fin 128) (r : ℕ) : EReal :=
  if h : r < 50000 then A (ix2 ⟨r, h⟩ q) else 0

/-- The sum over the first 1000·(n + 1) rows of column q, and the sum of their squares. -/
def sumCol (A : S50000x128.Idx → EReal) (n : ℕ) (q : Fin 128) : EReal :=
  ∑ r ∈ Finset.range (1000 * (n + 1)), rowval A q r
def sqCol (A : S50000x128.Idx → EReal) (n : ℕ) (q : Fin 128) : EReal :=
  ∑ r ∈ Finset.range (1000 * (n + 1)), rowval A q r * rowval A q r

/-- The sums over all rows, as one-row arrays. -/
def sumOut (A : S50000x128.Idx → EReal) : S1x128.Idx → EReal := fun j => ∑ r : Fin 50000, A (ix2 r (j 1))
def sqOut (A : S50000x128.Idx → EReal) : S1x128.Idx → EReal := fun j => ∑ r : Fin 50000, A (ix2 r (j 1)) * A (ix2 r (j 1))

theorem sumCol_last (A : S50000x128.Idx → EReal) (q : Fin 128) : sumCol A 49 q = sumOut A (row0 q) := by
  show ∑ r ∈ Finset.range 50000, rowval A q r = ∑ r : Fin 50000, A (ix2 r q)
  rw [Finset.sum_range]
  exact Finset.sum_congr rfl fun r _ => by unfold rowval; rw [dif_pos r.isLt]
theorem sqCol_last (A : S50000x128.Idx → EReal) (q : Fin 128) : sqCol A 49 q = sqOut A (row0 q) := by
  show ∑ r ∈ Finset.range 50000, rowval A q r * rowval A q r = ∑ r : Fin 50000, A (ix2 r q) * A (ix2 r q)
  rw [Finset.sum_range]
  exact Finset.sum_congr rfl fun r _ => by unfold rowval; rw [dif_pos r.isLt]

theorem sumCol_zero (A : S50000x128.Idx → EReal) (q : Fin 128) :
    sumCol A 0 q = ∑ p ∈ Finset.range 1000, rowval A q (1000 * 0 + p) := by
  show ∑ r ∈ Finset.range (1000 * (0 + 1)), rowval A q r = _
  simp only [Nat.mul_zero, Nat.zero_add, Nat.mul_one]
theorem sqCol_zero (A : S50000x128.Idx → EReal) (q : Fin 128) :
    sqCol A 0 q = ∑ p ∈ Finset.range 1000, rowval A q (1000 * 0 + p) * rowval A q (1000 * 0 + p) := by
  show ∑ r ∈ Finset.range (1000 * (0 + 1)), rowval A q r * rowval A q r = _
  simp only [Nat.mul_zero, Nat.zero_add, Nat.mul_one]
theorem sumCol_succ (A : S50000x128.Idx → EReal) (n : ℕ) (q : Fin 128) :
    sumCol A (n + 1) q = sumCol A n q + ∑ p ∈ Finset.range 1000, rowval A q (1000 * (n + 1) + p) := by
  show ∑ r ∈ Finset.range (1000 * (n + 1 + 1)), rowval A q r = _
  rw [show 1000 * (n + 1 + 1) = 1000 * (n + 1) + 1000 by ring, Finset.sum_range_add]
  rfl
theorem sqCol_succ (A : S50000x128.Idx → EReal) (n : ℕ) (q : Fin 128) :
    sqCol A (n + 1) q = sqCol A n q + ∑ p ∈ Finset.range 1000, rowval A q (1000 * (n + 1) + p) * rowval A q (1000 * (n + 1) + p) := by
  show ∑ r ∈ Finset.range (1000 * (n + 1 + 1)), rowval A q r * rowval A q r = _
  rw [show 1000 * (n + 1 + 1) = 1000 * (n + 1) + 1000 by ring, Finset.sum_range_add]
  rfl

/-- A block whose entry (p, q) is row 1000·n + p of column q: its column sum is the sum of the next 1000 rows. -/
theorem colsum_rows (x : S1000x128.Idx → EReal) (A : S50000x128.Idx → EReal) (n : ℕ) (q : Fin 128)
    (hx : ∀ p : Fin 1000, x (ix2 p q) = rowval A q (1000 * n + p.val)) :
    ∑ p : Fin 1000, x (ix2 p q) = ∑ p ∈ Finset.range 1000, rowval A q (1000 * n + p) := by
  rw [Finset.sum_range]
  exact Finset.sum_congr rfl fun p _ => hx p
theorem colsq_rows (x : S1000x128.Idx → EReal) (A : S50000x128.Idx → EReal) (n : ℕ) (q : Fin 128)
    (hx : ∀ p : Fin 1000, x (ix2 p q) = rowval A q (1000 * n + p.val)) :
    ∑ p : Fin 1000, x (ix2 p q) * x (ix2 p q) = ∑ p ∈ Finset.range 1000, rowval A q (1000 * n + p) * rowval A q (1000 * n + p) := by
  rw [Finset.sum_range]
  exact Finset.sum_congr rfl fun p _ => by rw [hx p]

/-- One step of the accumulation, for any block whose rows are the next 1000 rows: the stored values are the next
    running sums. -/
theorem step_sum (x : FVec Ideal S1000x128 .f32) (S : FVec Ideal S1x128 .f32) (A : S50000x128.Idx → EReal) (n : ℕ) (q : Fin 128)
    (hx : ∀ p : Fin 1000, x (ix2 p q) = rowval A q (1000 * (n + 1) + p.val)) (hS : S (row0 q) = sumCol A n q) :
    k1_pay4 (F := Ideal) x S (row0 q) = sumCol A (n + 1) q := by
  refine (pay4_apply x S q).trans ?_
  rw [hS, sumCol_succ, colsum_rows x A (n + 1) q hx]
theorem step_sq (x : FVec Ideal S1000x128 .f32) (S : FVec Ideal S1x128 .f32) (A : S50000x128.Idx → EReal) (n : ℕ) (q : Fin 128)
    (hx : ∀ p : Fin 1000, x (ix2 p q) = rowval A q (1000 * (n + 1) + p.val)) (hS : S (row0 q) = sqCol A n q) :
    k1_pay5 (F := Ideal) x S (row0 q) = sqCol A (n + 1) q := by
  refine (pay5_apply x S q).trans ?_
  rw [hS, sqCol_succ, colsq_rows x A (n + 1) q hx]
/-- The first step, from the cleared outputs. -/
theorem base_sum (x : FVec Ideal S1000x128 .f32) (A : S50000x128.Idx → EReal) (q : Fin 128)
    (hx : ∀ p : Fin 1000, x (ix2 p q) = rowval A q (1000 * 0 + p.val)) :
    k1_pay4 (F := Ideal) x (k1_pay1 (F := Ideal)) (row0 q) = sumCol A 0 q := by
  refine (pay4_apply x (k1_pay1 (F := Ideal)) q).trans ?_
  rw [pay1_apply, zero_add, sumCol_zero, colsum_rows x A 0 q hx]
theorem base_sq (x : FVec Ideal S1000x128 .f32) (A : S50000x128.Idx → EReal) (q : Fin 128)
    (hx : ∀ p : Fin 1000, x (ix2 p q) = rowval A q (1000 * 0 + p.val)) :
    k1_pay5 (F := Ideal) x (k1_pay2 (F := Ideal)) (row0 q) = sqCol A 0 q := by
  refine (pay5_apply x (k1_pay2 (F := Ideal)) q).trans ?_
  rw [pay2_apply, zero_add, sqCol_zero, colsq_rows x A 0 q hx]

/-! ## The region -/

variable (V : (c : Dev nD) → (b : Ref sig .tc) → Buf (Elt Ideal) ((c : Thread nD τ).loc b))

/-- The input's index map over the grid: one block of rows per point. -/
theorem idx_facts : ∀ t : Fin cfg1.N, win1_0.index t (0 : Fin 2) = t.val ∧ win1_0.index t (1 : Fin 2) = 0 :=
  (by decide +kernel : ∀ t : Fin grid1.N, _)

/-- Entry (p, q) of the input's block at point t is row 1000·t + p of column q. -/
theorem iblk_apply (c : Dev nD) (t : Fin cfg1.N) (p : Fin 1000) (q : Fin 128) :
    (iblk1 V c 0 t : S1000x128.Idx → EReal) (ix2 p q) = rowval (V c main_v46) q (1000 * t.val + p.val) := by
  obtain ⟨e0, e1⟩ := idx_facts t
  have hp : p.val < 1000 := p.isLt
  have hq : q.val < 128 := q.isLt
  have ht : t.val < 50 := lt_of_lt_of_eq t.isLt (show cfg1.N = 50 from N_1)
  have hr : 1000 * t.val + p.val < 50000 := by omega
  unfold rowval
  rw [dif_pos hr]
  show V c main_v46 (((cfg1.win 0).blk t).view.emb (ix2 p q)) = V c main_v46 (ix2 ⟨1000 * t.val + p.val, hr⟩ q)
  refine congrArg (V c main_v46) (funext fun a => Fin.ext ?_)
  match a with
  | ⟨0, _⟩ => show win1_0.index t (0 : Fin 2) * 1000 + 1 * p.val = 1000 * t.val + p.val; omega
  | ⟨1, _⟩ => show win1_0.index t (1 : Fin 2) * 128 + 1 * q.val = q.val; omega

/-- After point n the outputs hold, in column q, the sums over the first 1000·(n + 1) rows: by induction on the point. -/
theorem outsAt_eq (c : Dev nD) : ∀ (n : ℕ) (h : n < cfg1.N) (q : Fin 128),
    (outsAt1 (F := Ideal) V c n h).1 (row0 q) = sumCol (V c main_v46) n q
    ∧ (outsAt1 (F := Ideal) V c n h).2 (row0 q) = sqCol (V c main_v46) n q
  | 0, h, q => by
    rw [outsAt1_A V c ⟨0, h⟩ rfl, out_A_1, out_A_2]
    exact ⟨base_sum (iblk1 V c 0 ⟨0, h⟩) (V c main_v46) q (fun p => iblk_apply V c ⟨0, h⟩ p q),
      base_sq (iblk1 V c 0 ⟨0, h⟩) (V c main_v46) q (fun p => iblk_apply V c ⟨0, h⟩ p q)⟩
  | n + 1, h, q => by
    have hN : cfg1.N = 50 := N_1
    have hB : ¬(⟨n + 1, h⟩ : Fin cfg1.N).val % 50 = 0 := by dsimp only; omega
    rw [outsAt1_B V c ⟨n + 1, h⟩ hB, out_B_1, out_B_2]
    exact ⟨step_sum (iblk1 V c 0 ⟨n + 1, h⟩) _ (V c main_v46) n q (fun p => iblk_apply V c ⟨n + 1, h⟩ p q)
        (outsAt_eq c n (Nat.lt_of_succ_lt h) q).1,
      step_sq (iblk1 V c 0 ⟨n + 1, h⟩) _ (V c main_v46) n q (fun p => iblk_apply V c ⟨n + 1, h⟩ p q)
        (outsAt_eq c n (Nat.lt_of_succ_lt h) q).2⟩

/-- After the last point the outputs hold the sums over all rows. -/
theorem outsAt_last (c : Dev nD) (t : Fin cfg1.N) (h49 : t.val = 49) :
    (outsAt1 (F := Ideal) V c t.val t.isLt).1 = sumOut (V c main_v46)
    ∧ (outsAt1 (F := Ideal) V c t.val t.isLt).2 = sqOut (V c main_v46) := by
  obtain ⟨n, hn⟩ := t
  dsimp only at h49 ⊢
  subst h49
  refine ⟨funext fun j => ?_, funext fun j => ?_⟩
  · obtain ⟨q, rfl⟩ : ∃ q, j = row0 q := ⟨j 1, eq_row0 j⟩
    exact ((outsAt_eq V c 49 hn q).1).trans (sumCol_last _ q)
  · obtain ⟨q, rfl⟩ : ∃ q, j = row0 q := ⟨j 1, eq_row0 j⟩
    exact ((outsAt_eq V c 49 hn q).2).trans (sqCol_last _ q)

/-- The last point. -/
abbrev tLast : Fin cfg1.N := ⟨49, by rw [show cfg1.N = 50 from N_1]; decide⟩

/-- The outputs' index maps over the grid: block (0, 0) at every point. -/
theorem out_idx_facts : ∀ t : Fin cfg1.N, win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The one write-back of the first output, at the last point, writes the sums over all rows: its block is the array. -/
theorem flushed_eq1 (c : Dev nD) (t : Fin cfg1.N) (hf : (cfg1.win 1).flush t = true) :
    (dat1 (F := Ideal) V c).flushed 1 t = ((cfg1.win 1).blk t).view.read (Elt Ideal) (sumOut (V c main_v46)) := by
  have hN : cfg1.N = 50 := N_1
  have h49 : t.val = 49 := by have := (flush1_1 t).mp hf; have := t.isLt; omega
  obtain ⟨e0, e1, -⟩ := out_idx_facts t
  show (cfg1.win 1).cut (grid1.coords t) ((dat1 (F := Ideal) V c).after 1 t) = _
  rw [after1_1, (outsAt_last V c t h49).1]
  have hz' : (fun a => win1_1.index t a * main_v47_0.ty.shape.size a) = fun _ => 0 := funext fun a => by
    match a with
    | ⟨0, _⟩ => show win1_1.index t (0 : Fin 2) * 1 = 0; omega
    | ⟨1, _⟩ => show win1_1.index t (1 : Fin 2) * 128 = 0; omega
  exact (Memref.read_access_unit_zero (Elt Ideal) main_v47_0 hz' (fun a => by rw [congrFun hz' a]; simp) (sumOut (V c main_v46))).symm

theorem flushed_eq2 (c : Dev nD) (t : Fin cfg1.N) (hf : (cfg1.win 2).flush t = true) :
    (dat1 (F := Ideal) V c).flushed 2 t = ((cfg1.win 2).blk t).view.read (Elt Ideal) (sqOut (V c main_v46)) := by
  have hN : cfg1.N = 50 := N_1
  have h49 : t.val = 49 := by have := (flush1_2 t).mp hf; have := t.isLt; omega
  obtain ⟨-, -, e0, e1⟩ := out_idx_facts t
  show (cfg1.win 2).cut (grid1.coords t) ((dat1 (F := Ideal) V c).after 2 t) = _
  rw [after1_2, (outsAt_last V c t h49).2]
  have hz' : (fun a => win1_2.index t a * main_v47_1.ty.shape.size a) = fun _ => 0 := funext fun a => by
    match a with
    | ⟨0, _⟩ => show win1_2.index t (0 : Fin 2) * 1 = 0; omega
    | ⟨1, _⟩ => show win1_2.index t (1 : Fin 2) * 128 = 0; omega
  exact (Memref.read_access_unit_zero (Elt Ideal) main_v47_1 hz' (fun a => by rw [congrFun hz' a]; simp) (sqOut (V c main_v46))).symm

/-- The last point's block covers the one-row array. -/
theorem cover1 (i : S1x128.Idx) : ∃ t : Fin cfg1.N, (cfg1.win 1).flush t = true ∧ i ∈ ((cfg1.win 1).blk t).view.set :=
  ⟨tLast, (flush1_1 tLast).mpr rfl, by
    show i ∈ ((View.whole main_v47_0).slice (win1_1.rect tLast)).set
    rw [View.set_slice_whole, Rect.mem_set_unit]
    intro a
    have h0 : (i 0 : Nat) < 1 := (i 0).isLt
    have h1 : (i 1 : Nat) < 128 := (i 1).isLt
    match a with
    | ⟨0, _⟩ => show win1_1.index tLast 0 * win1_1.size 0 ≤ (i 0 : Nat) ∧ (i 0 : Nat) < win1_1.index tLast 0 * win1_1.size 0 + win1_1.xsize (grid1.coords tLast) 0
                rw [show win1_1.index tLast 0 * win1_1.size 0 = 0 from by decide +kernel, show win1_1.xsize (grid1.coords tLast) 0 = 1 from by decide +kernel]; omega
    | ⟨1, _⟩ => show win1_1.index tLast 1 * win1_1.size 1 ≤ (i 1 : Nat) ∧ (i 1 : Nat) < win1_1.index tLast 1 * win1_1.size 1 + win1_1.xsize (grid1.coords tLast) 1
                rw [show win1_1.index tLast 1 * win1_1.size 1 = 0 from by decide +kernel, show win1_1.xsize (grid1.coords tLast) 1 = 128 from by decide +kernel]; omega⟩
theorem cover2 (i : S1x128.Idx) : ∃ t : Fin cfg1.N, (cfg1.win 2).flush t = true ∧ i ∈ ((cfg1.win 2).blk t).view.set :=
  ⟨tLast, (flush1_2 tLast).mpr rfl, by
    show i ∈ ((View.whole main_v47_1).slice (win1_2.rect tLast)).set
    rw [View.set_slice_whole, Rect.mem_set_unit]
    intro a
    have h0 : (i 0 : Nat) < 1 := (i 0).isLt
    have h1 : (i 1 : Nat) < 128 := (i 1).isLt
    match a with
    | ⟨0, _⟩ => show win1_2.index tLast 0 * win1_2.size 0 ≤ (i 0 : Nat) ∧ (i 0 : Nat) < win1_2.index tLast 0 * win1_2.size 0 + win1_2.xsize (grid1.coords tLast) 0
                rw [show win1_2.index tLast 0 * win1_2.size 0 = 0 from by decide +kernel, show win1_2.xsize (grid1.coords tLast) 0 = 1 from by decide +kernel]; omega
    | ⟨1, _⟩ => show win1_2.index tLast 1 * win1_2.size 1 ≤ (i 1 : Nat) ∧ (i 1 : Nat) < win1_2.index tLast 1 * win1_2.size 1 + win1_2.xsize (grid1.coords tLast) 1
                rw [show win1_2.index tLast 1 * win1_2.size 1 = 0 from by decide +kernel, show win1_2.xsize (grid1.coords tLast) 1 = 128 from by decide +kernel]; omega⟩

/-- The two output arrays after the region's last point: the column sums and the column sums of squares. -/
theorem final1 (c : Dev nD) : (dat1 (F := Ideal) V c).arrAt 1 cfg1.N = sumOut (V c main_v46) :=
  (dat1 (F := Ideal) V c).arrAt_eq_of_cover 1 _ (flushed_eq1 V c) cover1
theorem final2 (c : Dev nD) : (dat1 (F := Ideal) V c).arrAt 2 cfg1.N = sqOut (V c main_v46) :=
  (dat1 (F := Ideal) V c).arrAt_eq_of_cover 2 _ (flushed_eq2 V c) cover2

end Cert.KernelIdeal.StatsRegion

end
-- ==== Proof.NormRegion.lean ====
/-
  The third region (normalize, rectify, add the residual), read as one whole-array function.
  Grid point t handles rows 1000·t … 1000·t + 999 of the 50000 × 128 arrays; the four one-row operands (mean,
  variance, scale, shift) are the same block at every point. At (r, j) the region's output array ends holding
      max (γ_j · (a_{r,j} − μ_j) · rsqrt (σ²_j + ε) + β_j) 0 + x_{r,j}
  of the arrays as the region finds them: the 50 row blocks tile the output, and each block is this function read
  through the block's rectangle.
-/
import proofs.«138678_j60498909331788_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.NormRegion

open Cert.KernelIdeal Cert.KernelIdeal.Gen
open Idealize.ShloMosaic Idealize.ShloMosaic.TcCoe Idealize.SL.Sem Idealize.ShloMosaic.ValueIdx
open Idealize.ShloMosaic.Pipeline (Dat)

/-- The row index (0, j) of a one-row operand. -/
abbrev row0 (j : Fin 128) : S1x128.Idx := ix2 (0 : Fin 1) j

/-- The normalized, rectified value plus the residual, at one entry. -/
def normAt (a x mu var g b : EReal) : EReal :=
  max (g * (a - mu) * Ideal.rsqrt (var + Ideal.ofBits .f32 0x3727C5AC#32) + b) (Ideal.ofBits .f32 0x00000000#32) + x

/-- The whole output array as a function of the six operand arrays. -/
def normOut (a x : S50000x128.Idx → EReal) (mu var g b : S1x128.Idx → EReal) : S50000x128.Idx → EReal :=
  fun i => normAt (a i) (x i) (mu (row0 (i 1))) (var (row0 (i 1))) (g (row0 (i 1))) (b (row0 (i 1)))

theorem hz : (![0, 0] : Fin 2 → Nat) = fun _ => 0 := funext fun a => by fin_cases a <;> rfl

/-- A one-row operand broadcast down the 1000 rows reads, at (p, q), the operand at (0, q). -/
theorem bcast_row {α : Type} (v : S1x128.Idx → α) (h : S1x128.Broadcasts S1000x128) (j : S1000x128.Idx) :
    broadcastTo S1000x128 v h j = v (row0 (j 1)) := by
  refine broadcastTo_apply v h j (row0 (j 1)) fun a => ?_
  match a with
  | ⟨0, _⟩ => rfl
  | ⟨1, _⟩ => rfl

/-- The body's one stored value, at an entry j = (p, q) of the block. -/
theorem pay_apply (x0 x1 : Vec Ideal S1000x128 .f32) (x2 x3 x4 x5 : Vec Ideal S1x128 .f32) (j : S1000x128.Idx) :
    k2_pay1 (F := Ideal) x0 x2 x3 x4 x5 x1 j
      = normAt (x0 j) (x1 j) (x2 (row0 (j 1))) (x3 (row0 (j 1))) (x4 (row0 (j 1))) (x5 (row0 (j 1))) := by
  unfold k2_pay1 normAt
  simp only [shapeCast_self, ValueIdx.addf_apply, ValueIdx.mulf_apply, ValueIdx.subf_apply, ValueIdx.maximumf_apply, bcast_row]
  rfl

/-! ## From blocks to the array -/

variable (V : (c : Dev nD) → (b : Ref sig .tc) → Buf (Elt Ideal) ((c : Thread nD τ).loc b))

/-- The printed index maps over the grid: the two full-height operands move with the output, one block of rows per
    point; the one-row operands stay at block (0, 0). -/
theorem idx_facts : ∀ t : Fin cfg2.N, win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The two full-height operands' blocks at point t, read at an entry j of the block, are the arrays read where the
    output's rectangle puts j. -/
theorem read_rows0 (c : Dev nD) (t : Fin cfg2.N) (j : S1000x128.Idx) :
    (iblk2 V c 0 t : S1000x128.Idx → EReal) j = (V c main_v46 : S50000x128.Idx → EReal) (((cfg2.win 6).blk t).view.emb j) := by
  obtain ⟨e60, e61, e00, e01, -⟩ := idx_facts t
  have hj0 : (j 0).val < 1000 := (j 0).isLt
  have hj1 : (j 1).val < 128 := (j 1).isLt
  show (V c main_v46 : S50000x128.Idx → EReal) (((cfg2.win 0).blk t).view.emb j) = _
  refine congrArg (V c main_v46 : S50000x128.Idx → EReal) (funext fun a => Fin.ext ?_)
  match a with
  | ⟨0, _⟩ => show win2_0.index t (0 : Fin 2) * 1000 + 1 * (j 0).val = win2_6.index t (0 : Fin 2) * 1000 + 1 * (j 0).val; omega
  | ⟨1, _⟩ => show win2_0.index t (1 : Fin 2) * 128 + 1 * (j 1).val = win2_6.index t (1 : Fin 2) * 128 + 1 * (j 1).val; omega
theorem read_rows1 (c : Dev nD) (t : Fin cfg2.N) (j : S1000x128.Idx) :
    (iblk2 V c 1 t : S1000x128.Idx → EReal) j = (V c main_arg0 : S50000x128.Idx → EReal) (((cfg2.win 6).blk t).view.emb j) := by
  obtain ⟨e60, e61, e00, e01, e10, e11, -⟩ := idx_facts t
  have hj0 : (j 0).val < 1000 := (j 0).isLt
  have hj1 : (j 1).val < 128 := (j 1).isLt
  show (V c main_arg0 : S50000x128.Idx → EReal) (((cfg2.win 1).blk t).view.emb j) = _
  refine congrArg (V c main_arg0 : S50000x128.Idx → EReal) (funext fun a => Fin.ext ?_)
  match a with
  | ⟨0, _⟩ => show win2_1.index t (0 : Fin 2) * 1000 + 1 * (j 0).val = win2_6.index t (0 : Fin 2) * 1000 + 1 * (j 0).val; omega
  | ⟨1, _⟩ => show win2_1.index t (1 : Fin 2) * 128 + 1 * (j 1).val = win2_6.index t (1 : Fin 2) * 128 + 1 * (j 1).val; omega

/-- The four one-row operands' blocks are the whole one-row arrays at every point. -/
theorem read_row2 (c : Dev nD) (t : Fin cfg2.N) (q : Fin 128) :
    (iblk2 V c 2 t : S1x128.Idx → EReal) (row0 q) = (V c main_v49 : S1x128.Idx → EReal) (row0 q) := by
  obtain ⟨e60, e61, e00, e01, e10, e11, e20, e21, -⟩ := idx_facts t
  have hq : q.val < 128 := q.isLt
  show (V c main_v49 : S1x128.Idx → EReal) (((cfg2.win 2).blk t).view.emb (row0 q)) = _
  refine congrArg (V c main_v49 : S1x128.Idx → EReal) (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega
theorem read_row3 (c : Dev nD) (t : Fin cfg2.N) (q : Fin 128) :
    (iblk2 V c 3 t : S1x128.Idx → EReal) (row0 q) = (V c main_v53 : S1x128.Idx → EReal) (row0 q) := by
  obtain ⟨e60, e61, e00, e01, e10, e11, e20, e21, e30, e31, -⟩ := idx_facts t
  have hq : q.val < 128 := q.isLt
  show (V c main_v53 : S1x128.Idx → EReal) (((cfg2.win 3).blk t).view.emb (row0 q)) = _
  refine congrArg (V c main_v53 : S1x128.Idx → EReal) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega
theorem read_row4 (c : Dev nD) (t : Fin cfg2.N) (q : Fin 128) :
    (iblk2 V c 4 t : S1x128.Idx → EReal) (row0 q) = (V c main_v54 : S1x128.Idx → EReal) (row0 q) := by
  obtain ⟨e60, e61, e00, e01, e10, e11, e20, e21, e30, e31, e40, e41, -⟩ := idx_facts t
  have hq : q.val < 128 := q.isLt
  show (V c main_v54 : S1x128.Idx → EReal) (((cfg2.win 4).blk t).view.emb (row0 q)) = _
  refine congrArg (V c main_v54 : S1x128.Idx → EReal) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega
theorem read_row5 (c : Dev nD) (t : Fin cfg2.N) (q : Fin 128) :
    (iblk2 V c 5 t : S1x128.Idx → EReal) (row0 q) = (V c main_v55 : S1x128.Idx → EReal) (row0 q) := by
  obtain ⟨e60, e61, e00, e01, e10, e11, e20, e21, e30, e31, e40, e41, e50, e51⟩ := idx_facts t
  have hq : q.val < 128 := q.isLt
  show (V c main_v55 : S1x128.Idx → EReal) (((cfg2.win 5).blk t).view.emb (row0 q)) = _
  refine congrArg (V c main_v55 : S1x128.Idx → EReal) (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

/-- The output's rectangle keeps the column. -/
theorem out_col (t : Fin cfg2.N) (j : S1000x128.Idx) : ((cfg2.win 6).blk t).view.emb j 1 = j 1 := by
  obtain ⟨e60, e61, -⟩ := idx_facts t
  have hj1 : (j 1).val < 128 := (j 1).isLt
  apply Fin.ext
  show win2_6.index t (1 : Fin 2) * 128 + 1 * (j 1).val = (j 1).val
  omega

/-- What point t writes back is block t of the whole-array function of the arrays as the region finds them. -/
theorem flushed_eq (c : Dev nD) (t : Fin cfg2.N) :
    (dat2 (F := Ideal) V c).flushed 6 t = ((cfg2.win 6).blk t).view.read (Elt Ideal)
      (normOut (V c main_v46) (V c main_arg0) (V c main_v49) (V c main_v53) (V c main_v54) (V c main_v55)) := by
  show (cfg2.win 6).cut (grid2.coords t) ((dat2 (F := Ideal) V c).after 6 t) = _
  rw [after2_6]
  unfold out2_6
  rw [View.canon_unit_zero hz]
  simp only [View.ld_unit_zero (S := S1000x128) hz, View.ld_unit_zero (S := S1x128) hz]
  funext j
  show k2_pay1 (F := Ideal) (iblk2 V c 0 t) (iblk2 V c 2 t) (iblk2 V c 3 t) (iblk2 V c 4 t) (iblk2 V c 5 t) (iblk2 V c 1 t) j
    = normOut (V c main_v46) (V c main_arg0) (V c main_v49) (V c main_v53) (V c main_v54) (V c main_v55)
        (((cfg2.win 6).blk t).view.emb j)
  refine (pay_apply (iblk2 V c 0 t) (iblk2 V c 1 t) (iblk2 V c 2 t) (iblk2 V c 3 t) (iblk2 V c 4 t) (iblk2 V c 5 t) j).trans ?_
  rw [read_rows0 V c t j, read_rows1 V c t j, read_row2 V c t (j 1), read_row3 V c t (j 1), read_row4 V c t (j 1), read_row5 V c t (j 1)]
  unfold normOut
  rw [out_col t j]

/-- An index of the array is in point t's block iff each coordinate is in the block's range on its axis. -/
theorem mem_blk (t : Fin cfg2.N) (i : S50000x128.Idx) :
    i ∈ ((cfg2.win 6).blk t).view.set ↔ ∀ a : Fin 2, win2_6.index t a * S1000x128.size a ≤ (i a).val ∧ (i a).val < win2_6.index t a * S1000x128.size a + S1000x128.size a := by
  show i ∈ ((View.whole main_v56).slice (win2_6.rect t)).set ↔ _
  rw [View.set_slice_whole, Rect.mem_set_unit]
  exact Iff.rfl

/-- Row r lies in the block of point r / 1000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 50 := N_2
  let t : Fin cfg2.N := ⟨(i 0).val / 1000, by rw [hN]; omega⟩
  obtain ⟨e60, e61, -⟩ := idx_facts t
  have tv : t.val = (i 0).val / 1000 := rfl
  refine ⟨t, flush2_6 t, ?_⟩
  rw [mem_blk]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 128 ≤ (i 1).val ∧ (i 1).val < win2_6.index t (1 : Fin 2) * 128 + 128; omega

/-- The region's output array after its last point. -/
theorem final (c : Dev nD) : (dat2 (F := Ideal) V c).arrAt 6 cfg2.N
    = normOut (V c main_v46) (V c main_arg0) (V c main_v49) (V c main_v53) (V c main_v54) (V c main_v55) :=
  (dat2 (F := Ideal) V c).arrAt_eq_of_cover 6 _ (fun t _ => flushed_eq V c t) cover

end Cert.KernelIdeal.NormRegion

end
-- ==== Proof.Boundaries.lean ====
/-
  The idealized kernel program's buffer contents at its segment boundaries, read back to the launch memory.
  @main is: convert the weight; REGION 0 (the product h = x · w); the edge aggregation (shared with the reference, read
  elsewhere); REGION 1 (column sums of the aggregated array and of its squares); the mean and the variance
  (sum / 50000, sum of squares / 50000 − mean²) and two one-row recasts; REGION 2 (normalize, rectify, add x).
  Each lemma reads one buffer at one boundary in terms of the buffers one boundary earlier.
-/
import proofs.«138678_j60498909331788_1_alg».proof.Proof.MatmulRegion
import proofs.«138678_j60498909331788_1_alg».proof.Proof.StatsRegion
import proofs.«138678_j60498909331788_1_alg».proof.Proof.NormRegion
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- No operation of a host stretch writes the buffer: the stretch leaves it as it was. -/
macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Region 0's entry -/

theorem W1_arg0 (c : Dev nD) : W1 m ρ c (Proc.devRef .tc main_arg0) = m ((c : Thread nD τ).loc main_arg0) := by
  show StableHlo.after hostOps0 (W0 m ρ c) (Proc.devRef .tc main_arg0) = _
  host_keeps hostOps0
theorem W1_arg2 (c : Dev nD) : W1 m ρ c (Proc.devRef .tc main_arg2) = m ((c : Thread nD τ).loc main_arg2) := by
  show StableHlo.after hostOps0 (W0 m ρ c) (Proc.devRef .tc main_arg2) = _
  host_keeps hostOps0
theorem W1_arg3 (c : Dev nD) : W1 m ρ c (Proc.devRef .tc main_arg3) = m ((c : Thread nD τ).loc main_arg3) := by
  show StableHlo.after hostOps0 (W0 m ρ c) (Proc.devRef .tc main_arg3) = _
  host_keeps hostOps0
theorem W1_arg4 (c : Dev nD) : W1 m ρ c (Proc.devRef .tc main_arg4) = m ((c : Thread nD τ).loc main_arg4) := by
  show StableHlo.after hostOps0 (W0 m ρ c) (Proc.devRef .tc main_arg4) = _
  host_keeps hostOps0
theorem W1_arg5 (c : Dev nD) : W1 m ρ c (Proc.devRef .tc main_arg5) = m ((c : Thread nD τ).loc main_arg5) := by
  show StableHlo.after hostOps0 (W0 m ρ c) (Proc.devRef .tc main_arg5) = _
  host_keeps hostOps0

/-- The converted weight is the weight: over the extended reals a change of format is the identity. -/
theorem W1_v0 (c : Dev nD) : (W1 m ρ c (Proc.devRef .tc main_v0) : S128x128.Idx → EReal) = m ((c : Thread nD τ).loc main_arg1) := by
  show StableHlo.after hostOps0 (W0 m ρ c) (Proc.devRef .tc main_v0) = _
  after_results
  rfl

/-! ## Region 0's exit -/

/-- The product array. -/
theorem W2_v1 (c : Dev nD) : W2 m ρ c (Proc.devRef .tc main_v1)
    = MatmulRegion.prodOut (m ((c : Thread nD τ).loc main_arg0)) (m ((c : Thread nD τ).loc main_arg1)) := by
  refine (W2_arr m ρ c 2).trans ((MatmulRegion.final (V1 m ρ) c).trans ?_)
  show MatmulRegion.prodOut (W1 m ρ c (Proc.devRef .tc main_arg0)) (W1 m ρ c (Proc.devRef .tc main_v0)) = _
  rw [W1_arg0, W1_v0]
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)

/-! ## Region 1's entry: the arguments the aggregation does not write -/

theorem W3_arg0 (c : Dev nD) : W3 m ρ c (Proc.devRef .tc main_arg0) = m ((c : Thread nD τ).loc main_arg0) := by
  refine Eq.trans ?_ (W2_arg0 m ρ c)
  show StableHlo.after hostOps1 (W2 m ρ c) (Proc.devRef .tc main_arg0) = _
  host_keeps hostOps1
theorem W3_arg3 (c : Dev nD) : W3 m ρ c (Proc.devRef .tc main_arg3) = m ((c : Thread nD τ).loc main_arg3) := by
  refine Eq.trans ?_ (W2_arg3 m ρ c)
  show StableHlo.after hostOps1 (W2 m ρ c) (Proc.devRef .tc main_arg3) = _
  host_keeps hostOps1
theorem W3_arg4 (c : Dev nD) : W3 m ρ c (Proc.devRef .tc main_arg4) = m ((c : Thread nD τ).loc main_arg4) := by
  refine Eq.trans ?_ (W2_arg4 m ρ c)
  show StableHlo.after hostOps1 (W2 m ρ c) (Proc.devRef .tc main_arg4) = _
  host_keeps hostOps1

/-! ## Region 1's exit -/

theorem W4_sum (c : Dev nD) : W4 m ρ c (Proc.devRef .tc main_v47_0) = StatsRegion.sumOut (V3 m ρ c main_v46) :=
  (W4_arr m ρ c 1).trans (StatsRegion.final1 (V3 m ρ) c)
theorem W4_sq (c : Dev nD) : W4 m ρ c (Proc.devRef .tc main_v47_1) = StatsRegion.sqOut (V3 m ρ c main_v46) :=
  (W4_arr m ρ c 2).trans (StatsRegion.final2 (V3 m ρ) c)
theorem W4_v46 (c : Dev nD) : W4 m ρ c (Proc.devRef .tc main_v46) = V3 m ρ c main_v46 :=
  (W4_arr m ρ c 0).trans (((dat1 (V3 m ρ) c).arrAt_in 0 rfl _).trans (A_eq1 (V3 m ρ) c 0))
theorem W4_arg0 (c : Dev nD) : W4 m ρ c (Proc.devRef .tc main_arg0) = m ((c : Thread nD τ).loc main_arg0) :=
  (W4_of_ne m ρ c main_arg0 (by decide)).trans (W3_arg0 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)

/-! ## Region 2's entry -/

theorem W5_v46 (c : Dev nD) : W5 m ρ c (Proc.devRef .tc main_v46) = V3 m ρ c main_v46 := by
  refine Eq.trans ?_ (W4_v46 m ρ c)
  show StableHlo.after hostOps2 (W4 m ρ c) (Proc.devRef .tc main_v46) = _
  host_keeps hostOps2
theorem W5_arg0 (c : Dev nD) : W5 m ρ c (Proc.devRef .tc main_arg0) = m ((c : Thread nD τ).loc main_arg0) := by
  refine Eq.trans ?_ (W4_arg0 m ρ c)
  show StableHlo.after hostOps2 (W4 m ρ c) (Proc.devRef .tc main_arg0) = _
  host_keeps hostOps2

/-- The mean row: the column sums over 50000. -/
theorem W5_mean (c : Dev nD) : W5 m ρ c (Proc.devRef .tc main_v49)
    = Host.divf (F := Ideal) (StatsRegion.sumOut (V3 m ρ c main_v46))
        (broadcastInDim S1x128 ![] bcast_S_S1x128 (constant (F := Ideal) S_ .f32 0x47435000#32)) := by
  show StableHlo.after hostOps2 (W4 m ρ c) (Proc.devRef .tc main_v49) = _
  after_results
  rw [W4_sum]
/-- The variance row: the column sums of squares over 50000, minus the squared mean. -/
theorem W5_var (c : Dev nD) : W5 m ρ c (Proc.devRef .tc main_v53)
    = subf (Host.divf (F := Ideal) (StatsRegion.sqOut (V3 m ρ c main_v46))
          (broadcastInDim S1x128 ![] bcast_S_S1x128 (constant (F := Ideal) S_ .f32 0x47435000#32)))
        (mulf (Host.divf (F := Ideal) (StatsRegion.sumOut (V3 m ρ c main_v46))
            (broadcastInDim S1x128 ![] bcast_S_S1x128 (constant (F := Ideal) S_ .f32 0x47435000#32)))
          (Host.divf (F := Ideal) (StatsRegion.sumOut (V3 m ρ c main_v46))
            (broadcastInDim S1x128 ![] bcast_S_S1x128 (constant (F := Ideal) S_ .f32 0x47435000#32)))) := by
  show StableHlo.after hostOps2 (W4 m ρ c) (Proc.devRef .tc main_v53) = _
  after_results
  rw [W4_sum, W4_sq]
/-- The scale and shift rows: the 128-vectors recast as one row. -/
theorem W5_scale (c : Dev nD) : W5 m ρ c (Proc.devRef .tc main_v54)
    = shapeCast S1x128 (m ((c : Thread nD τ).loc main_arg3)) shapeCasts_S128_S1x128 := by
  show StableHlo.after hostOps2 (W4 m ρ c) (Proc.devRef .tc main_v54) = _
  after_results
  rw [W4_arg3]
  rfl
theorem W5_shift (c : Dev nD) : W5 m ρ c (Proc.devRef .tc main_v55)
    = shapeCast S1x128 (m ((c : Thread nD τ).loc main_arg4)) shapeCasts_S128_S1x128 := by
  show StableHlo.after hostOps2 (W4 m ρ c) (Proc.devRef .tc main_v55) = _
  after_results
  rw [W4_arg4]
  rfl

/-! ## Region 2's exit: the result -/

theorem W6_result (c : Dev nD) : W6 m ρ c (Proc.devRef .tc main_v56)
    = NormRegion.normOut (V3 m ρ c main_v46) (m ((c : Thread nD τ).loc main_arg0))
        (W5 m ρ c (Proc.devRef .tc main_v49)) (W5 m ρ c (Proc.devRef .tc main_v53))
        (W5 m ρ c (Proc.devRef .tc main_v54)) (W5 m ρ c (Proc.devRef .tc main_v55)) := by
  refine (W6_arr m ρ c 6).trans ((NormRegion.final (V5 m ρ) c).trans ?_)
  show NormRegion.normOut (W5 m ρ c (Proc.devRef .tc main_v46)) (W5 m ρ c (Proc.devRef .tc main_arg0)) _ _ _ _ = _
  rw [W5_v46, W5_arg0]

end Cert.KernelIdeal.Boundaries

end
-- ==== Proof.AggRead.lean ====
/-
  The edge aggregation. Between the first two regions the idealized kernel program applies, on the host, the same
  operations as the reference does to its own product: self loops appended to the edge list, in-degrees by a
  scatter-add of ones, the inverse square roots of the degrees (floored at a tiny positive constant), their products
  along the edges, the source rows gathered and scaled, scatter-added by target, plus the bias. So the array the second
  region finds is the reference's aggregated array of the same arguments, once the kernel's product is the
  reference's product: entry (r, j) of both is Σ_k x(r, k) · w(k, j).
-/
import proofs.«138678_j60498909331788_1_alg».proof.Proof.Boundaries
import proofs.«138678_j60498909331788_1_alg».proof.Proof.Gen.ReferenceIdeal.Read

set_option maxRecDepth 16384

noncomputable section

namespace Cert.KernelIdeal.AggRead

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The kernel's product array is the reference's product of the same operands. -/
theorem prod_eq (x0 : S50000x128.Idx → EReal) (x1 : S128x128.Idx → EReal) :
    MatmulRegion.prodOut x0 x1 = Cert.ReferenceIdeal.Read.val_main_v0 (F := Ideal) x0 x1 := by
  funext i
  refine Eq.trans ?_ (Cert.ReferenceIdeal.Read.val_main_v0_apply x0 x1 i).symm
  unfold MatmulRegion.prodOut MatmulRegion.prodAt
  refine Finset.sum_congr rfl fun k _ => ?_
  have el : (ix2 (i 0) k : S50000x128.Idx) = Cert.ReferenceIdeal.Read.lidx_main_v0 i k := funext fun a => by
    match a with
    | ⟨0, _⟩ => rfl
    | ⟨1, _⟩ => rfl
  have er : (ix2 k (i 1) : S128x128.Idx) = Cert.ReferenceIdeal.Read.ridx_main_v0 i k := funext fun a => by
    match a with
    | ⟨0, _⟩ => rfl
    | ⟨1, _⟩ => rfl
  exact congrArg₂ (· * ·) (congrArg x0 el) (congrArg x1 er)

set_option maxHeartbeats 4000000 in
/-- The host stretch between the first two regions, read at the aggregated array: from a product array that is the
    reference's product, the bias and the edge list, it computes the reference's aggregated array. -/
theorem agg_of (c : Dev nD) (x0 : S50000x128.Idx → EReal) (x1 : S128x128.Idx → EReal) (x2 : S128.Idx → EReal) (x5 : IVec S2x1600000 32)
    (hh : W2 m ρ c (Proc.devRef .tc main_v1) = Cert.ReferenceIdeal.Read.val_main_v0 (F := Ideal) x0 x1)
    (h2 : W2 m ρ c (Proc.devRef .tc main_arg2) = x2)
    (h5 : W2 m ρ c (Proc.devRef .tc main_arg5) = x5) :
    V3 m ρ c main_v46 = Cert.ReferenceIdeal.Read.val_main_v45 (F := Ideal) x0 x1 x2 x5 := by
  show StableHlo.after hostOps1 (W2 m ρ c) (Proc.devRef .tc main_v46) = _
  after_results_simp
  repeat (first
    | rw [reshape_result] | rw [unary_result] | rw [binary_result] | rw [nullary_result] | rw [ternary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [hh, h2, h5]
  simp only [Cert.ReferenceIdeal.Read.val_main_v45, Cert.ReferenceIdeal.Read.val_main_v44, Cert.ReferenceIdeal.Read.val_main_v43, Cert.ReferenceIdeal.Read.val_main_v42, Cert.ReferenceIdeal.Read.val_main_v41, Cert.ReferenceIdeal.Read.val_main_v40, Cert.ReferenceIdeal.Read.val_main_cst_7, Cert.ReferenceIdeal.Read.val_main_v39, Cert.ReferenceIdeal.Read.val_main_v38, Cert.ReferenceIdeal.Read.val_main_v37, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_c_6, Cert.ReferenceIdeal.Read.val_main_v31, Cert.ReferenceIdeal.Read.val_main_v30, Cert.ReferenceIdeal.Read.val_main_c_5, Cert.ReferenceIdeal.Read.val_main_v29, Cert.ReferenceIdeal.Read.val_main_v28, Cert.ReferenceIdeal.Read.val_main_v27, Cert.ReferenceIdeal.Read.val_main_v26, Cert.ReferenceIdeal.Read.val_main_v25, Cert.ReferenceIdeal.Read.val_main_v24, Cert.ReferenceIdeal.Read.val_main_c_4, Cert.ReferenceIdeal.Read.val_main_v23, Cert.ReferenceIdeal.Read.val_main_v22, Cert.ReferenceIdeal.Read.val_main_c_3, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_c_2, Cert.ReferenceIdeal.Read.val_main_v16, Cert.ReferenceIdeal.Read.val_main_v15, Cert.ReferenceIdeal.Read.val_main_c, Cert.ReferenceIdeal.Read.val_main_v14, Cert.ReferenceIdeal.Read.val_main_v13, Cert.ReferenceIdeal.Read.val_main_v12, Cert.ReferenceIdeal.Read.val_main_cst_1, Cert.ReferenceIdeal.Read.val_main_v11, Cert.ReferenceIdeal.Read.val_main_v10, Cert.ReferenceIdeal.Read.val_main_v9, Cert.ReferenceIdeal.Read.val_main_cst_0, Cert.ReferenceIdeal.Read.val_main_v8, Cert.ReferenceIdeal.Read.val_main_cst, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1]
  rfl

/-- The array the second region finds is the reference's aggregated array of the launch arguments. -/
theorem agg_read (c : Dev nD) : V3 m ρ c main_v46
    = Cert.ReferenceIdeal.Read.val_main_v45 (F := Ideal) (m ((c : Thread nD τ).loc main_arg0)) (m ((c : Thread nD τ).loc main_arg1))
        (m ((c : Thread nD τ).loc main_arg2)) (m ((c : Thread nD τ).loc main_arg5)) :=
  agg_of m ρ c _ _ _ _ ((Boundaries.W2_v1 m ρ c).trans (prod_eq _ _)) (Boundaries.W2_arg2 m ρ c) (Boundaries.W2_arg5 m ρ c)

end Cert.KernelIdeal.AggRead

end
-- ==== Proof.Finite.lean ====
/-
  Closure of "every entry is a real number" under the operations of the extended reals that the
  reference program uses: sums, products, differences, finite sums, the reciprocal square root of a
  positive real, the maximum with a positive real, and the re-indexing operations (gather, broadcast),
  whose entries are entries of their operand. Also the three float constants the program spells, as the
  reals their patterns denote.
-/
import Idealize.ShloMosaic.PureOps.Ideal
import Idealize.ShloMosaic.PureOps.Ideal.Laws

noncomputable section

namespace Cert.Finite

open Idealize.ShloMosaic
open scoped BigOperators

/-- Every entry of the array is a real number (neither infinity). -/
def IsFin {ι : Type*} (v : ι → EReal) : Prop := ∀ i, ∃ r : ℝ, v i = (r : EReal)

/-- Every entry of the array is a positive real number. -/
def IsPos {ι : Type*} (v : ι → EReal) : Prop := ∀ i, ∃ r : ℝ, 0 < r ∧ v i = (r : EReal)

theorem IsPos.isFin {ι : Type*} {v : ι → EReal} (h : IsPos v) : IsFin v :=
  fun i => let ⟨r, _, hr⟩ := h i; ⟨r, hr⟩

/-! ### Scalars -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem exists_real_sum {ι : Type*} (s : Finset ι) (f : ι → EReal)
    (h : ∀ i ∈ s, ∃ r : ℝ, f i = (r : EReal)) : ∃ r : ℝ, ∑ i ∈ s, f i = (r : EReal) := by
  classical
  choose! g hg using h
  exact ⟨∑ i ∈ s, g i, by rw [coe_sum]; exact Finset.sum_congr rfl hg⟩

theorem exists_real_add (x y : EReal) (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

theorem exists_real_mul (x y : EReal) (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

theorem exists_real_sub (x y : EReal) (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

/-- The reciprocal square root of a positive real is a real. -/
theorem exists_real_rsqrt_of_pos (r : ℝ) (h : 0 < r) : ∃ q : ℝ, Ideal.rsqrt (r : EReal) = (q : EReal) := by
  rw [Ideal.rsqrt_coe, if_neg (not_lt.mpr h.le), if_neg h.ne']
  exact ⟨_, rfl⟩

/-- The maximum of a real and a positive real is a positive real. -/
theorem exists_pos_max (x y : EReal) (hx : ∃ r : ℝ, x = (r : EReal)) (hy : ∃ r : ℝ, 0 < r ∧ y = (r : EReal)) :
    ∃ r : ℝ, 0 < r ∧ max x y = (r : EReal) := by
  obtain ⟨a, rfl⟩ := hx; obtain ⟨b, hb, rfl⟩ := hy
  rcases le_total (a : EReal) (b : EReal) with hab | hab
  · exact ⟨b, hb, max_eq_right hab⟩
  · exact ⟨a, lt_of_lt_of_le hb (EReal.coe_le_coe_iff.mp hab), max_eq_left hab⟩

/-! ### The constants -/

/-- The pattern of `1e-12` denotes a positive real: sign bit clear, exponent field `87`, so the value is
    `(2^23 + fraction) · 2^(87 - 127 - 23)`. -/
theorem ofBits_eps_pos : ∃ e : ℝ, 0 < e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `+0.0` denotes the real `0`. -/
theorem ofBits_zero : Ideal.ofBits .f32 0x00000000#32 = ((0 : ℝ) : EReal) := by
  rw [Ideal.ofBits_zero_f32, EReal.coe_zero]

/-! ### Arrays: the operations of the program, entry by entry -/

section Arrays
variable {s t : Shape} {φ : FTy}

/-- A splat of a pattern that denotes a real. -/
theorem isFin_constant (b : BitVec φ.bits) (h : ∃ r : ℝ, Ideal.ofBits φ b = (r : EReal)) :
    IsFin (constant (F := Ideal) s φ b) := fun _ => h

theorem isPos_constant (b : BitVec φ.bits) (h : ∃ r : ℝ, 0 < r ∧ Ideal.ofBits φ b = (r : EReal)) :
    IsPos (constant (F := Ideal) s φ b) := fun _ => h

theorem IsFin.addf {x y : FVec Ideal s φ} (hx : IsFin x) (hy : IsFin y) : IsFin (addf x y) :=
  fun i => exists_real_add _ _ (hx i) (hy i)

theorem IsFin.subf {x y : FVec Ideal s φ} (hx : IsFin x) (hy : IsFin y) : IsFin (subf x y) :=
  fun i => exists_real_sub _ _ (hx i) (hy i)

theorem IsFin.mulf {x y : FVec Ideal s φ} (hx : IsFin x) (hy : IsFin y) : IsFin (mulf x y) :=
  fun i => exists_real_mul _ _ (hx i) (hy i)

/-- The maximum, entry by entry, of an array of reals and an array of positive reals. -/
theorem IsFin.maximumf_pos {x y : FVec Ideal s φ} (hx : IsFin x) (hy : IsPos y) : IsPos (maximumf x y) :=
  fun i => exists_pos_max _ _ (hx i) (hy i)

/-- The reciprocal square root, entry by entry, of an array of positive reals. -/
theorem IsPos.rsqrt {x : FVec Ideal s φ} (hx : IsPos x) : IsFin (Host.rsqrt x) := by
  intro i
  obtain ⟨r, hr, h⟩ := hx i
  show ∃ q : ℝ, Ideal.rsqrt (x i) = (q : EReal)
  rw [h]
  exact exists_real_rsqrt_of_pos r hr

/-- A broadcast's entries are entries of its operand. -/
theorem IsFin.broadcastInDim {x : s.Idx → EReal} (hx : IsFin x) (dims : Fin s.rank → Fin t.rank)
    (h : s.BroadcastsInDim t dims) : IsFin (broadcastInDim t dims h x) :=
  fun _ => hx _

theorem IsPos.broadcastInDim {x : s.Idx → EReal} (hx : IsPos x) (dims : Fin s.rank → Fin t.rank)
    (h : s.BroadcastsInDim t dims) : IsPos (broadcastInDim t dims h x) :=
  fun _ => hx _

/-- A gather's entries are entries of its operand, whatever the indices hold. -/
theorem IsFin.gather {si : Shape} {w : Nat} {x : s.Idx → EReal} (hx : IsFin x) (d : GatherDims s si t)
    (idx : IVec si w) : IsFin (Host.gather d x idx) :=
  fun _ => hx _

/-- An accumulating scatter's entry is the operand's entry plus a finite sum of update entries, whatever
    the indices hold. -/
theorem IsFin.scatterAdd {si u : Shape} {w : Nat} {x : FVec Ideal s φ} {upd : FVec Ideal u φ} (hx : IsFin x)
    (hu : IsFin upd) (d : ScatterDims s si u) (idx : IVec si w) : IsFin (Host.scatterAdd d x idx upd) := by
  intro i
  simp only [Host.scatterAdd, Ideal.hostScatterAdd_def]
  unfold Ideal.hostScatterAdd
  exact exists_real_add _ _ (hx i) (exists_real_sum _ _ fun j _ => hu j)

/-- A contraction's entry is a finite sum of products of entries of the two operands. -/
theorem IsFin.dotGeneral {sl sr so : Shape} {φ₁ φ₂ : FTy} {lhs : FVec Ideal sl φ₁} {rhs : FVec Ideal sr φ₂}
    (hl : IsFin lhs) (hr : IsFin rhs) (d : DotDims sl sr so) (prec : Option ContractPrecision) :
    IsFin (Host.dotGeneral d prec lhs rhs) := by
  intro j
  simp only [Host.dotGeneral]
  rw [Ideal.dotGeneral_apply]
  exact exists_real_sum _ _ fun k _ => exists_real_mul _ _ (hl _) (hr _)

end Arrays

end Cert.Finite

end
-- ==== Proof.AggFinite.lean ====
/-
  Every entry of the aggregated array of the reference program is a real number when the float inputs
  have real entries, whatever the integer index array holds. Stage by stage: the feature product is a finite
  sum of products of reals; the in-degree is zero plus a finite sum of ones; its maximum with the positive
  constant is a positive real, so its reciprocal square root is a real; gathers and broadcasts pick entries
  of their operand; products, sums and accumulating scatters of arrays of reals are arrays of reals.
-/
import proofs.«138678_j60498909331788_1_alg».proof.Proof.Gen.ReferenceIdeal.Read
import proofs.«138678_j60498909331788_1_alg».proof.Proof.Finite

noncomputable section

namespace Cert.AggFinite

open Cert.ReferenceIdeal Cert.ReferenceIdeal.Gen Cert.ReferenceIdeal.Read Idealize.ShloMosaic Idealize.ShloMosaic.TcCoe
  Idealize.SL.Sem Idealize.ShloMosaic.StableHlo Cert.Finite

/-! ### The feature product -/

theorem isFin_v0 (x0 : (⟨S50000x128, .f32⟩ : BufTy).Contents (Elt Ideal)) (x1 : (⟨S128x128, .f32⟩ : BufTy).Contents (Elt Ideal))
    (h0 : IsFin x0) (h1 : IsFin x1) : IsFin (val_main_v0 (F := Ideal) x0 x1) := by
  unfold val_main_v0
  exact IsFin.dotGeneral h0 h1 _ _

/-! ### The normalisation: in-degree, its floor, the reciprocal square root -/

/-- The splat of `1.0`. -/
theorem isFin_v8 : IsFin (val_main_v8 (F := Ideal)) := by
  unfold val_main_v8 val_main_cst
  exact IsFin.broadcastInDim (isFin_constant _ ⟨1, ofBits_one⟩) _ _

/-- The splat of `0.0` the in-degree accumulates into. -/
theorem isFin_v9 : IsFin (val_main_v9 (F := Ideal)) := by
  unfold val_main_v9 val_main_cst_0
  exact IsFin.broadcastInDim (isFin_constant _ ⟨0, ofBits_zero⟩) _ _

/-- The in-degree: zero plus a finite sum of ones. -/
theorem isFin_v11 (x5 : (⟨S2x1600000, .i32⟩ : BufTy).Contents (Elt Ideal)) : IsFin (val_main_v11 (F := Ideal) x5) := by
  unfold val_main_v11
  exact IsFin.scatterAdd isFin_v9 isFin_v8 _ _

/-- The splat of the positive floor. -/
theorem isPos_v12 : IsPos (val_main_v12 (F := Ideal)) := by
  unfold val_main_v12 val_main_cst_1
  exact IsPos.broadcastInDim (isPos_constant _ ofBits_eps_pos) _ _

/-- The floored in-degree is a positive real. -/
theorem isPos_v13 (x5 : (⟨S2x1600000, .i32⟩ : BufTy).Contents (Elt Ideal)) : IsPos (val_main_v13 (F := Ideal) x5) := by
  unfold val_main_v13
  exact IsFin.maximumf_pos (isFin_v11 x5) isPos_v12

/-- Its reciprocal square root is a real. -/
theorem isFin_v14 (x5 : (⟨S2x1600000, .i32⟩ : BufTy).Contents (Elt Ideal)) : IsFin (val_main_v14 (F := Ideal) x5) := by
  unfold val_main_v14
  exact IsPos.rsqrt (isPos_v13 x5)

/-! ### The edge weights -/

theorem isFin_v21 (x5 : (⟨S2x1600000, .i32⟩ : BufTy).Contents (Elt Ideal)) : IsFin (val_main_v21 (F := Ideal) x5) := by
  unfold val_main_v21
  exact IsFin.gather (isFin_v14 x5) _ _

theorem isFin_v28 (x5 : (⟨S2x1600000, .i32⟩ : BufTy).Contents (Elt Ideal)) : IsFin (val_main_v28 (F := Ideal) x5) := by
  unfold val_main_v28
  exact IsFin.gather (isFin_v14 x5) _ _

theorem isFin_v29 (x5 : (⟨S2x1600000, .i32⟩ : BufTy).Contents (Elt Ideal)) : IsFin (val_main_v29 (F := Ideal) x5) := by
  unfold val_main_v29
  exact IsFin.mulf (isFin_v21 x5) (isFin_v28 x5)

theorem isFin_v37 (x5 : (⟨S2x1600000, .i32⟩ : BufTy).Contents (Elt Ideal)) : IsFin (val_main_v37 (F := Ideal) x5) := by
  unfold val_main_v37
  exact IsFin.broadcastInDim (isFin_v29 x5) _ _

theorem isFin_v38 (x5 : (⟨S2x1600000, .i32⟩ : BufTy).Contents (Elt Ideal)) : IsFin (val_main_v38 (F := Ideal) x5) := by
  unfold val_main_v38
  exact IsFin.broadcastInDim (isFin_v37 x5) _ _

/-! ### The messages and their aggregation -/

theorem isFin_v36 (x0 : (⟨S50000x128, .f32⟩ : BufTy).Contents (Elt Ideal)) (x1 : (⟨S128x128, .f32⟩ : BufTy).Contents (Elt Ideal))
    (x5 : (⟨S2x1600000, .i32⟩ : BufTy).Contents (Elt Ideal)) (h0 : IsFin x0) (h1 : IsFin x1) :
    IsFin (val_main_v36 (F := Ideal) x0 x1 x5) := by
  unfold val_main_v36
  exact IsFin.gather (isFin_v0 x0 x1 h0 h1) _ _

theorem isFin_v39 (x0 : (⟨S50000x128, .f32⟩ : BufTy).Contents (Elt Ideal)) (x1 : (⟨S128x128, .f32⟩ : BufTy).Contents (Elt Ideal))
    (x5 : (⟨S2x1600000, .i32⟩ : BufTy).Contents (Elt Ideal)) (h0 : IsFin x0) (h1 : IsFin x1) :
    IsFin (val_main_v39 (F := Ideal) x0 x1 x5) := by
  unfold val_main_v39
  exact IsFin.mulf (isFin_v36 x0 x1 x5 h0 h1) (isFin_v38 x5)

/-- The splat of `0.0` the messages accumulate into. -/
theorem isFin_v40 : IsFin (val_main_v40 (F := Ideal)) := by
  unfold val_main_v40 val_main_cst_7
  exact IsFin.broadcastInDim (isFin_constant _ ⟨0, ofBits_zero⟩) _ _

theorem isFin_v42 (x0 : (⟨S50000x128, .f32⟩ : BufTy).Contents (Elt Ideal)) (x1 : (⟨S128x128, .f32⟩ : BufTy).Contents (Elt Ideal))
    (x5 : (⟨S2x1600000, .i32⟩ : BufTy).Contents (Elt Ideal)) (h0 : IsFin x0) (h1 : IsFin x1) :
    IsFin (val_main_v42 (F := Ideal) x0 x1 x5) := by
  unfold val_main_v42
  exact IsFin.scatterAdd isFin_v40 (isFin_v39 x0 x1 x5 h0 h1) _ _

/-- The bias, broadcast over the rows. -/
theorem isFin_v44 (x2 : (⟨S128, .f32⟩ : BufTy).Contents (Elt Ideal)) (h2 : IsFin x2) : IsFin (val_main_v44 (F := Ideal) x2) := by
  unfold val_main_v44 val_main_v43
  exact IsFin.broadcastInDim (IsFin.broadcastInDim h2 _ _) _ _

/-- Every entry of the aggregated array is a real number. -/
theorem agg_isFin (x0 : (⟨S50000x128, .f32⟩ : BufTy).Contents (Elt Ideal)) (x1 : (⟨S128x128, .f32⟩ : BufTy).Contents (Elt Ideal))
    (x2 : (⟨S128, .f32⟩ : BufTy).Contents (Elt Ideal)) (x5 : (⟨S2x1600000, .i32⟩ : BufTy).Contents (Elt Ideal))
    (h0 : IsFin x0) (h1 : IsFin x1) (h2 : IsFin x2) : IsFin (val_main_v45 (F := Ideal) x0 x1 x2 x5) := by
  unfold val_main_v45
  exact IsFin.addf (isFin_v42 x0 x1 x5 h0 h1) (isFin_v44 x2 h2)

end Cert.AggFinite

end
-- ==== Proof.VarianceLaw.lean ====
/-
  The variance identity that joins the two programs' batch statistics: for real numbers a_1 … a_n with mean μ = (Σ a_i)/n,
  the mean of the squared deviations (Σ (a_i − μ)²)/n equals the mean of the squares minus the squared mean, (Σ a_i²)/n − μ².
-/
import Mathlib

namespace Cert.VarianceLaw

open Finset

/-- Mean of squared deviations = mean of squares − square of the mean, over any finite index type whose cardinality is the
    nonzero real n. -/
theorem mean_sq_dev {ι : Type*} [Fintype ι] (a : ι → ℝ) (n : ℝ) (hn : n ≠ 0) (hcard : (Fintype.card ι : ℝ) = n) :
    (∑ i, (a i - (∑ j, a j) / n) * (a i - (∑ j, a j) / n)) / n
      = (∑ i, a i * a i) / n - ((∑ j, a j) / n) * ((∑ j, a j) / n) := by
  set s := ∑ j, a j with hs
  have h1 : ∑ i, (a i - s / n) * (a i - s / n) = (∑ i, a i * a i) - 2 * (s / n) * s + n * ((s / n) * (s / n)) := by
    have : ∀ i, (a i - s / n) * (a i - s / n) = a i * a i - 2 * (s / n) * a i + (s / n) * (s / n) := fun i => by ring
    simp only [this, Finset.sum_add_distrib, Finset.sum_sub_distrib, ← Finset.mul_sum, Finset.sum_const, Finset.card_univ,
      nsmul_eq_mul, hcard, ← hs]
    ring
  rw [h1]
  field_simp
  ring

end Cert.VarianceLaw
-- ==== Proof.StatsLaw.lean ====
/-
  The batch statistics of the two programs over one array of 50000 rows and 128 columns, as functions of the
  array on the extended reals, and the two laws that join them. The means agree at every array: the sum
  started from the zero constant is the sum. The variances agree when every entry is a real number: the mean of
  the squared deviations from the mean equals the mean of the squares minus the square of the mean.
-/
import Idealize.ShloMosaic.PureOps.Ideal
import Idealize.ShloMosaic.PureOps.Ideal.Laws
import Idealize.ShloMosaic.Lib.ValueIdx
import proofs.«138678_j60498909331788_1_alg».proof.Proof.Finite
import proofs.«138678_j60498909331788_1_alg».proof.Proof.VarianceLaw

noncomputable section

namespace Cert.StatsLaw

open Idealize.ShloMosaic Idealize.ShloMosaic.ValueIdx Cert.Finite
open scoped BigOperators

/-- An array of 50000 rows and 128 columns of extended reals. -/
abbrev Arr := (⟨2, ![50000, 128]⟩ : Shape).Idx → EReal

/-- The column mean as the reference takes it: the sum from the zero constant, divided by 50000. -/
def meanRef (A : Arr) (q : Fin 128) : EReal :=
  Ideal.div (Ideal.ofBits .f32 0x00000000#32 + ∑ k : Fin 50000, A (ix2 k q)) (Ideal.ofBits .f32 0x47435000#32)

/-- The column variance as the reference takes it: the mean of the squared deviations from the mean. -/
def varRef (A : Arr) (q : Fin 128) : EReal :=
  Ideal.div (Ideal.ofBits .f32 0x00000000#32 + ∑ k : Fin 50000, (A (ix2 k q) - meanRef A q) * (A (ix2 k q) - meanRef A q))
    (Ideal.ofBits .f32 0x47435000#32)

/-- The column mean as the kernel takes it: the sum divided by 50000. -/
def meanKer (A : Arr) (q : Fin 128) : EReal :=
  Ideal.div (∑ r : Fin 50000, A (ix2 r q)) (Ideal.ofBits .f32 0x47435000#32)

/-- The column variance as the kernel takes it: the mean of the squares minus the square of the mean. -/
def varKer (A : Arr) (q : Fin 128) : EReal :=
  Ideal.div (∑ r : Fin 50000, A (ix2 r q) * A (ix2 r q)) (Ideal.ofBits .f32 0x47435000#32) - meanKer A q * meanKer A q

/-- The pattern of `50000.0` denotes the real `50000`: sign bit clear, exponent field `142`, so the value is
    `(2^23 + fraction) · 2^(142 - 127 - 23) = 12800000 / 256`. -/
theorem ofBits_50000 : Ideal.ofBits .f32 0x47435000#32 = ((50000 : ℝ) : EReal) := by
  simp [Ideal.ofBits, Ideal.ieee, -EReal.coe_mul]; norm_num

/-- The two means are one function of the array: the zero constant is `0`. -/
theorem mean_eq (A : Arr) (q : Fin 128) : meanKer A q = meanRef A q := by
  unfold meanKer meanRef
  rw [Ideal.ofBits_zero_f32, zero_add]

/-- The two variances agree on an array of reals: with `b k` the real entries of the column and `μ` their mean,
    both are real numbers, `(∑ (b k - μ)²) / n` and `(∑ b k²) / n - μ²`, equal by the variance identity. -/
theorem var_eq (A : Arr) (hA : IsFin A) (q : Fin 128) : varKer A q = varRef A q := by
  choose a ha using hA
  obtain ⟨b, hb⟩ : ∃ b : Fin 50000 → ℝ, ∀ k, A (ix2 k q) = (b k : EReal) := ⟨fun k => a (ix2 k q), fun k => ha _⟩
  have hne : (50000 : ℝ) ≠ 0 := by norm_num
  have hmeanR : meanRef A q = (((∑ k, b k) / 50000 : ℝ) : EReal) := by
    unfold meanRef
    rw [Ideal.ofBits_zero_f32, zero_add, ofBits_50000, Ideal.div_coe hne]
    simp only [hb]
    rw [← coe_sum Finset.univ b, ← EReal.coe_mul, mul_one_div]
  have hmeanK : meanKer A q = (((∑ k, b k) / 50000 : ℝ) : EReal) := (mean_eq A q).trans hmeanR
  have hR : varRef A q
      = (((∑ k, (b k - (∑ j, b j) / 50000) * (b k - (∑ j, b j) / 50000)) / 50000 : ℝ) : EReal) := by
    unfold varRef
    rw [hmeanR, Ideal.ofBits_zero_f32, zero_add, ofBits_50000, Ideal.div_coe hne]
    simp only [hb, ← EReal.coe_sub, ← EReal.coe_mul]
    rw [← coe_sum Finset.univ (fun k => (b k - (∑ j, b j) / 50000) * (b k - (∑ j, b j) / 50000)), ← EReal.coe_mul,
      mul_one_div]
  have hK : varKer A q
      = (((∑ k, b k * b k) / 50000 - ((∑ j, b j) / 50000) * ((∑ j, b j) / 50000) : ℝ) : EReal) := by
    unfold varKer
    rw [hmeanK, ofBits_50000, Ideal.div_coe hne]
    simp only [hb, ← EReal.coe_mul]
    rw [← coe_sum Finset.univ (fun k => b k * b k), ← EReal.coe_mul, mul_one_div, ← EReal.coe_sub]
  rw [hK, hR, Cert.VarianceLaw.mean_sq_dev b 50000 hne (by simp)]

end Cert.StatsLaw

end
-- ==== Proof.RefRead.lean ====
/-
  The reference program's result read at an index, as a function of the aggregated array taken as a whole:
  the array is centred by its column mean, scaled by the reciprocal square root of its column variance plus a
  constant and by the per-column weight, shifted by the per-column bias, clamped below at zero, and added to
  the first input. The broadcasts read their operand at the column of the index; the two column statistics
  are the sums over the rows that the statistics module names.
-/
import proofs.«138678_j60498909331788_1_alg».proof.Proof.Gen.ReferenceIdeal.Read
import proofs.«138678_j60498909331788_1_alg».proof.Proof.StatsLaw

noncomputable section

namespace Cert.RefRead

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.StatsLaw

/-! ### The index functions of the broadcasts and sums, by coordinates -/

/-- The index a column sum reads at row `k` of column `j`. -/
theorem idx46_eq (j : S128.Idx) (k : Fin 50000) : idx_main_v46 j k = ix2 (n1 := 128) k (j 0) :=
  funext fun a => by match a with | ⟨0, _⟩ => rfl | ⟨1, _⟩ => rfl

theorem idx53_eq (j : S128.Idx) (k : Fin 50000) : idx_main_v53 j k = ix2 (n1 := 128) k (j 0) :=
  funext fun a => by match a with | ⟨0, _⟩ => rfl | ⟨1, _⟩ => rfl

/-- A per-column array broadcast over the rows is read at the column of the index. -/
theorem idx49_50 (i : S50000x128.Idx) : idx_main_v49 (idx_main_v50 i) = ix1 (n := 128) (i 1) :=
  funext fun a => by match a with | ⟨0, _⟩ => rfl

theorem idx56_57 (i : S50000x128.Idx) : idx_main_v56 (idx_main_v57 i) = ix1 (n := 128) (i 1) :=
  funext fun a => by match a with | ⟨0, _⟩ => rfl

theorem idx59_60 (i : S50000x128.Idx) : idx_main_v59 (idx_main_v60 i) = ix1 (n := 128) (i 1) :=
  funext fun a => by match a with | ⟨0, _⟩ => rfl

theorem idx65_66 (i : S50000x128.Idx) : idx_main_v65 (idx_main_v66 i) = ix1 (n := 128) (i 1) :=
  funext fun a => by match a with | ⟨0, _⟩ => rfl

theorem idx68_69 (i : S50000x128.Idx) : idx_main_v68 (idx_main_v69 i) = ix1 (n := 128) (i 1) :=
  funext fun a => by match a with | ⟨0, _⟩ => rfl

/-! ### The column mean -/

/-- The mean stage at column `j` is the reference mean of the aggregated array. -/
theorem v48_eq (x0 : (⟨S50000x128, .f32⟩ : BufTy).Contents (Elt Ideal)) (x1 : (⟨S128x128, .f32⟩ : BufTy).Contents (Elt Ideal)) (x2 : (⟨S128, .f32⟩ : BufTy).Contents (Elt Ideal)) (x5 : (⟨S2x1600000, .i32⟩ : BufTy).Contents (Elt Ideal)) (j : S128.Idx) :
    val_main_v48 (F := Ideal) x0 x1 x2 x5 j = meanRef (val_main_v45 (F := Ideal) x0 x1 x2 x5) (j 0) := by
  rw [val_main_v48_apply, val_main_v46_apply, val_main_v47_apply, val_main_cst_9_apply, val_main_cst_8_apply]
  simp only [Ideal.hostDivf_def, Ideal.ofBits_def, idx46_eq]
  rfl

/-- The mean broadcast over the rows, as the centring of the variance reads it. -/
theorem v50_eq (x0 : (⟨S50000x128, .f32⟩ : BufTy).Contents (Elt Ideal)) (x1 : (⟨S128x128, .f32⟩ : BufTy).Contents (Elt Ideal)) (x2 : (⟨S128, .f32⟩ : BufTy).Contents (Elt Ideal)) (x5 : (⟨S2x1600000, .i32⟩ : BufTy).Contents (Elt Ideal)) (i : S50000x128.Idx) :
    val_main_v50 (F := Ideal) x0 x1 x2 x5 i = meanRef (val_main_v45 (F := Ideal) x0 x1 x2 x5) (i 1) := by
  rw [val_main_v50_apply, val_main_v49_apply, idx49_50]
  exact v48_eq x0 x1 x2 x5 (ix1 (n := 128) (i 1))

/-- The mean broadcast over the rows, as the centring of the result reads it. -/
theorem v57_eq (x0 : (⟨S50000x128, .f32⟩ : BufTy).Contents (Elt Ideal)) (x1 : (⟨S128x128, .f32⟩ : BufTy).Contents (Elt Ideal)) (x2 : (⟨S128, .f32⟩ : BufTy).Contents (Elt Ideal)) (x5 : (⟨S2x1600000, .i32⟩ : BufTy).Contents (Elt Ideal)) (i : S50000x128.Idx) :
    val_main_v57 (F := Ideal) x0 x1 x2 x5 i = meanRef (val_main_v45 (F := Ideal) x0 x1 x2 x5) (i 1) := by
  rw [val_main_v57_apply, val_main_v56_apply, idx56_57]
  exact v48_eq x0 x1 x2 x5 (ix1 (n := 128) (i 1))

/-! ### The column variance and its reciprocal square root -/

/-- The squared deviation that the variance sums, at row `k` of column `j`. -/
theorem v52_at (x0 : (⟨S50000x128, .f32⟩ : BufTy).Contents (Elt Ideal)) (x1 : (⟨S128x128, .f32⟩ : BufTy).Contents (Elt Ideal)) (x2 : (⟨S128, .f32⟩ : BufTy).Contents (Elt Ideal)) (x5 : (⟨S2x1600000, .i32⟩ : BufTy).Contents (Elt Ideal)) (j : S128.Idx) (k : Fin 50000) :
    val_main_v52 (F := Ideal) x0 x1 x2 x5 (idx_main_v53 j k)
      = ((val_main_v45 (F := Ideal) x0 x1 x2 x5) (ix2 (n1 := 128) k (j 0)) - meanRef (val_main_v45 (F := Ideal) x0 x1 x2 x5) (j 0))
        * ((val_main_v45 (F := Ideal) x0 x1 x2 x5) (ix2 (n1 := 128) k (j 0)) - meanRef (val_main_v45 (F := Ideal) x0 x1 x2 x5) (j 0)) := by
  rw [val_main_v52_apply, val_main_v51_apply, v50_eq, idx53_eq]
  rfl

/-- The variance stage at column `j` is the reference variance of the aggregated array. -/
theorem v55_eq (x0 : (⟨S50000x128, .f32⟩ : BufTy).Contents (Elt Ideal)) (x1 : (⟨S128x128, .f32⟩ : BufTy).Contents (Elt Ideal)) (x2 : (⟨S128, .f32⟩ : BufTy).Contents (Elt Ideal)) (x5 : (⟨S2x1600000, .i32⟩ : BufTy).Contents (Elt Ideal)) (j : S128.Idx) :
    val_main_v55 (F := Ideal) x0 x1 x2 x5 j = varRef (val_main_v45 (F := Ideal) x0 x1 x2 x5) (j 0) := by
  rw [val_main_v55_apply, val_main_v53_apply, val_main_v54_apply, val_main_cst_11_apply, val_main_cst_10_apply]
  simp only [v52_at, Ideal.hostDivf_def, Ideal.ofBits_def]
  unfold varRef
  rfl

theorem v64_eq (x0 : (⟨S50000x128, .f32⟩ : BufTy).Contents (Elt Ideal)) (x1 : (⟨S128x128, .f32⟩ : BufTy).Contents (Elt Ideal)) (x2 : (⟨S128, .f32⟩ : BufTy).Contents (Elt Ideal)) (x5 : (⟨S2x1600000, .i32⟩ : BufTy).Contents (Elt Ideal)) (j : S128.Idx) :
    val_main_v64 (F := Ideal) x0 x1 x2 x5 j
      = Ideal.rsqrt (varRef (val_main_v45 (F := Ideal) x0 x1 x2 x5) (j 0) + Ideal.ofBits .f32 0x3727C5AC#32) := by
  rw [val_main_v64_apply, val_main_v63_apply, v55_eq, val_main_v62_apply, val_main_cst_12_apply]
  rfl

theorem v66_eq (x0 : (⟨S50000x128, .f32⟩ : BufTy).Contents (Elt Ideal)) (x1 : (⟨S128x128, .f32⟩ : BufTy).Contents (Elt Ideal)) (x2 : (⟨S128, .f32⟩ : BufTy).Contents (Elt Ideal)) (x5 : (⟨S2x1600000, .i32⟩ : BufTy).Contents (Elt Ideal)) (i : S50000x128.Idx) :
    val_main_v66 (F := Ideal) x0 x1 x2 x5 i
      = Ideal.rsqrt (varRef (val_main_v45 (F := Ideal) x0 x1 x2 x5) (i 1) + Ideal.ofBits .f32 0x3727C5AC#32) := by
  rw [val_main_v66_apply, val_main_v65_apply, idx65_66]
  exact v64_eq x0 x1 x2 x5 (ix1 (n := 128) (i 1))

/-! ### The per-column weight and bias -/

theorem v60_eq (x3 : (⟨S128, .f32⟩ : BufTy).Contents (Elt Ideal)) (i : S50000x128.Idx) : val_main_v60 (F := Ideal) x3 i = x3 (ix1 (n := 128) (i 1)) := by
  rw [val_main_v60_apply, val_main_v59_apply, idx59_60]

theorem v69_eq (x4 : (⟨S128, .f32⟩ : BufTy).Contents (Elt Ideal)) (i : S50000x128.Idx) : val_main_v69 (F := Ideal) x4 i = x4 (ix1 (n := 128) (i 1)) := by
  rw [val_main_v69_apply, val_main_v68_apply, idx68_69]

/-! ### The result -/

/-- The reference's result at an index. -/
theorem ref_apply (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128, .f32⟩ : BufTy).Contents (Elt Ideal)) (x4 : (⟨S128, .f32⟩ : BufTy).Contents (Elt Ideal)) (x5 : (⟨S2x1600000, .i32⟩ : BufTy).Contents (Elt Ideal)) (i : S50000x128.Idx) :
    val_main_v72 (F := Ideal) x0 x1 x2 x3 x4 x5 i
      = max (x3 (ix1 (n := 128) (i 1)) * (val_main_v45 (F := Ideal) x0 x1 x2 x5 i - meanRef (val_main_v45 (F := Ideal) x0 x1 x2 x5) (i 1))
              * Ideal.rsqrt (varRef (val_main_v45 (F := Ideal) x0 x1 x2 x5) (i 1) + Ideal.ofBits .f32 0x3727C5AC#32) + x4 (ix1 (n := 128) (i 1)))
            (Ideal.ofBits .f32 0x00000000#32) + x0 i := by
  rw [val_main_v72_apply, val_main_v71_apply, val_main_v70_apply, val_main_v67_apply, val_main_v61_apply,
    val_main_v58_apply, v57_eq, v60_eq, v66_eq, v69_eq, val_main_call0_v0_apply, val_main_call0_cst_apply]
  rfl

end Cert.RefRead

end
-- ==== Proof.ResultValue.lean ====
/-
  The idealized kernel's result IS the reference's result, as a function of the launch arguments.
  Write A for the aggregated array (the same array on both sides). At (r, j) both programs return
      max (γ_j · (A_{r,j} − μ_j) · rsqrt (σ²_j + ε) + β_j) 0 + x_{r,j},
  the reference with μ_j = (0 + Σ_r A_{r,j}) / 50000 and σ²_j = (0 + Σ_r (A_{r,j} − μ_j)²) / 50000, the kernel with
  μ_j = (Σ_r A_{r,j}) / 50000 and σ²_j = (Σ_r A²_{r,j}) / 50000 − μ_j². The means agree outright; the variances agree
  because every entry of A is a real number (finite inputs give a finite A): the mean of the squared deviations is the
  mean of the squares minus the squared mean.
-/
import proofs.«138678_j60498909331788_1_alg».proof.Proof.AggRead
import proofs.«138678_j60498909331788_1_alg».proof.Proof.AggFinite
import proofs.«138678_j60498909331788_1_alg».proof.Proof.StatsLaw
import proofs.«138678_j60498909331788_1_alg».proof.Proof.RefRead

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.ValueIdx
open Cert.Finite Cert.StatsLaw

variable (m : (ℓ : Loc nD τ sig) → Buf (Elt Ideal) ℓ) (ρ : Dev nD → PrngReg)

/-- The aggregated array of the launch arguments (the reference's stage). -/
abbrev aggArr (c : Dev nD) : Arr :=
  Cert.ReferenceIdeal.Read.val_main_v45 (F := Ideal) (m ((c : Thread nD τ).loc main_arg0)) (m ((c : Thread nD τ).loc main_arg1))
    (m ((c : Thread nD τ).loc main_arg2)) (m ((c : Thread nD τ).loc main_arg5))

/-- The kernel's mean row is the reference's mean. -/
theorem mean_row (c : Dev nD) (q : Fin 128) :
    (W5 m ρ c (Proc.devRef .tc main_v49) : S1x128.Idx → EReal) (NormRegion.row0 q) = meanRef (aggArr m c) q := by
  rw [Boundaries.W5_mean, AggRead.agg_read]
  show meanKer (aggArr m c) q = _
  exact mean_eq _ q

/-- The kernel's variance row is the reference's variance, the aggregated array being finite. -/
theorem var_row (c : Dev nD) (q : Fin 128) (hA : IsFin (aggArr m c)) :
    (W5 m ρ c (Proc.devRef .tc main_v53) : S1x128.Idx → EReal) (NormRegion.row0 q) = varRef (aggArr m c) q := by
  rw [Boundaries.W5_var, AggRead.agg_read]
  show varKer (aggArr m c) q = _
  exact var_eq _ hA q

/-- The scale and shift rows read the 128-vectors. -/
theorem scale_row (c : Dev nD) (q : Fin 128) :
    (W5 m ρ c (Proc.devRef .tc main_v54) : S1x128.Idx → EReal) (NormRegion.row0 q)
      = (m ((c : Thread nD τ).loc main_arg3) : S128.Idx → EReal) (ix1 (n := 128) q) := by
  rw [Boundaries.W5_scale]
  exact StatsRegion.cast_row_apply _ _ q
theorem shift_row (c : Dev nD) (q : Fin 128) :
    (W5 m ρ c (Proc.devRef .tc main_v55) : S1x128.Idx → EReal) (NormRegion.row0 q)
      = (m ((c : Thread nD τ).loc main_arg4) : S128.Idx → EReal) (ix1 (n := 128) q) := by
  rw [Boundaries.W5_shift]
  exact StatsRegion.cast_row_apply _ _ q

/-- The kernel's result buffer ends at the reference's result term of the launch arguments, the float arguments
    entering the aggregation being finite. -/
theorem result_eq (c : Dev nD)
    (h0 : IsFin (m ((c : Thread nD τ).loc main_arg0))) (h1 : IsFin (m ((c : Thread nD τ).loc main_arg1)))
    (h2 : IsFin (m ((c : Thread nD τ).loc main_arg2))) :
    W6 m ρ c (Proc.devRef .tc main_v56)
      = Cert.ReferenceIdeal.Read.val_main_v72 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have hA : IsFin (aggArr m c) := Cert.AggFinite.agg_isFin _ _ _ _ h0 h1 h2
  refine (Boundaries.W6_result m ρ c).trans (funext fun i => ?_)
  refine Eq.trans ?_ (Cert.RefRead.ref_apply _ _ _ _ _ _ i).symm
  unfold NormRegion.normOut NormRegion.normAt
  rw [mean_row m ρ c (i 1), var_row m ρ c (i 1) hA, scale_row m ρ c (i 1), shift_row m ρ c (i 1), AggRead.agg_read m ρ c]

end Cert.KernelIdeal.ResultValue

end
-- ==== Proof.PreFinite.lean ====
/-
  From the precondition "every float input has every entry of absolute value below +∞" to "every entry of
  every float input is a real number".
-/
import proofs.«138678_j60498909331788_1_alg».proof.Pre_finite_inputs
import proofs.«138678_j60498909331788_1_alg».proof.Proof.Finite
import Idealize.ShloMosaic.Lib.ReduceAll
import Idealize.ShloMosaic.Lib.ValueIdx

noncomputable section

namespace Cert.PreFinite

open Idealize.ShloMosaic Cert.Pre_finite_inputs Cert.Finite

/-- The rank-zero shape has one index. -/
instance : Subsingleton S_.Idx := ⟨fun a b => funext fun d => d.elim0⟩

/-- An extended real whose absolute value compares below `+∞` is a real: the absolute value of either
    infinity is `+∞`. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  induction x using EReal.rec with
  | bot =>
    exfalso
    simp [Ideal.cmpf_def, Ideal.cmp, Ideal.absf_def, Ideal.ofBits, Ideal.ieee] at h
  | top =>
    exfalso
    simp [Ideal.cmpf_def, Ideal.cmp, Ideal.absf_def, Ideal.ofBits, Ideal.ieee] at h
  | coe r => exact ⟨r, rfl⟩

/-- If the conjunction over all entries of `|x| < +∞` holds then every entry of `x` is a real: the
    conjunction gives the comparison at each entry. -/
theorem isFin_of_all {s : Shape} {axes : List (Fin s.rank)} (x : FVec Ideal s .f32) (dims : Fin S_.rank → Fin s.rank)
    (bc : S_.BroadcastsInDim s dims) (hr : s.ReducesTo axes S_) (hu : 0 < S_.numel)
    (e : Host.reduce IntOp.andi
        (cmpf .olt (Host.absf x) (broadcastInDim s dims bc (constant S_ .f32 0x7F800000#32)))
        (constantI S_ 1 1#1) hr hu ValueIdx.ix0 = 1#1) : IsFin x := by
  intro i
  have hi := Host.reduce_andi_all _ _ hr hu _ e i
  exact real_of_abs_lt_inf (x i) hi

variable [Cert.Pre_finite_inputs.Facts]
open Cert.Pre_finite_inputs.Facts

theorem isFin_of_pre (a0 : FVec Ideal S50000x128 .f32) (a1 : FVec Ideal S128x128 .f32) (a2 : FVec Ideal S128 .f32)
    (a3 : FVec Ideal S128 .f32) (a4 : FVec Ideal S128 .f32) (a5 : IVec S2x1600000 32)
    (h : Cert.Pre_finite_inputs.fn (F := Ideal) a0 a1 a2 a3 a4 a5 = fun _ => 1#1) :
    IsFin a0 ∧ IsFin a1 ∧ IsFin a2 ∧ IsFin a3 ∧ IsFin a4 := by
  have h0 := congrFun h ValueIdx.ix0
  dsimp only [Cert.Pre_finite_inputs.fn, Cert.Pre_finite_inputs.fn_part1, andi] at h0
  simp only [IntOp.andi_eq_one] at h0
  obtain ⟨⟨⟨⟨e0, e1⟩, e2⟩, e3⟩, e4⟩ := h0
  exact ⟨isFin_of_all a0 _ _ _ _ e0, isFin_of_all a1 _ _ _ _ e1, isFin_of_all a2 _ _ _ _ e2,
    isFin_of_all a3 _ _ _ _ e3, isFin_of_all a4 _ _ _ _ e4⟩

end Cert.PreFinite

end
-- ==== Proof.lean ====
/-
  A residual graph-convolution block: relu(batchnorm(aggregate(x · w) + b)) + x over 50000 nodes of 128 features and
  1.6 million edges. The kernel program runs the linear transform, the batch statistics and the normalization as three
  tiled regions (50 blocks of 1000 rows each) with the edge aggregation between the first two on the host; the
  reference is one host program. Over the extended reals the two agree on finite inputs:
    * the tiled product is the whole product (rounding the operands to a narrower format is the identity);
    * the aggregation is the same chain of operations on both sides, applied to the same product;
    * the column sums accumulated block by block are the sums over all rows (sums regroup freely);
    * the kernel's variance, mean of squares minus squared mean, is the reference's mean of squared deviations,
      because the aggregated array of finite inputs is finite;
    * normalization, rectification and the residual are the same entrywise function on both sides.
  The three frames: the two kernel programs' frame certificates, and the reference's run with its result dropped.
  The idealization rewrote nothing, so it is preserved trivially.
-/
import proofs.«138678_j60498909331788_1_alg».proof.Defs
import proofs.«138678_j60498909331788_1_alg».proof.Proof.Gen.Kernel
import proofs.«138678_j60498909331788_1_alg».proof.Proof.Gen.Kernel.Skeleton
import proofs.«138678_j60498909331788_1_alg».proof.Proof.Gen.Kernel.Launch
import proofs.«138678_j60498909331788_1_alg».proof.Proof.Gen.Kernel.Points
import proofs.«138678_j60498909331788_1_alg».proof.Proof.Gen.Kernel.Frame
import proofs.«138678_j60498909331788_1_alg».proof.Proof.Gen.KernelIdeal
import proofs.«138678_j60498909331788_1_alg».proof.Proof.Gen.KernelIdeal.Skeleton
import proofs.«138678_j60498909331788_1_alg».proof.Proof.Gen.KernelIdeal.Launch
import proofs.«138678_j60498909331788_1_alg».proof.Proof.Gen.KernelIdeal.Points
import proofs.«138678_j60498909331788_1_alg».proof.Proof.Gen.KernelIdeal.Frame
import proofs.«138678_j60498909331788_1_alg».proof.Proof.Gen.ReferenceIdeal
import proofs.«138678_j60498909331788_1_alg».proof.Proof.Gen.Pre_finite_inputs
import proofs.«138678_j60498909331788_1_alg».proof.Proof.Gen.ReferenceIdeal.Run
import proofs.«138678_j60498909331788_1_alg».proof.Proof.Gen.ReferenceIdeal.Read
import proofs.«138678_j60498909331788_1_alg».proof.Proof.KernelRun
import proofs.«138678_j60498909331788_1_alg».proof.Proof.ResultValue
import proofs.«138678_j60498909331788_1_alg».proof.Proof.PreFinite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result array: the kernel's result buffer ends at the last boundary's contents,
    which is the reference's result term of the launch arguments; the reference's ends at that term of its own
    arguments, which agree. -/
theorem algebraic : Cert.algebraic_KernelIdeal_ReferenceIdeal := by
  intro m ρ m' ρ' hpre hagree
  refine ⟨fun c => Cert.KernelIdeal.Gen.W6 m ρ c (Proc.devRef .tc Cert.KernelIdeal.main_v56),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, -, -⟩ := Cert.PreFinite.isFin_of_pre _ _ _ _ _ _ (hpre c)
  rw [Cert.ReferenceIdeal.Read.val_main_v72_eq, (hagree c).1, (hagree c).2.1, (hagree c).2.2.1, (hagree c).2.2.2.1,
    (hagree c).2.2.2.2.1, (hagree c).2.2.2.2.2]
  exact (Cert.KernelIdeal.ResultValue.result_eq m ρ c f0 f1 f2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
